-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x161700x8 : Shape := ⟨3, ![4, 161700, 8]⟩
abbrev S8x256 : Shape := ⟨2, ![8, 256]⟩
abbrev S256 : Shape := ⟨1, ![256]⟩
abbrev S256x1 : Shape := ⟨2, ![256, 1]⟩
abbrev S1 : Shape := ⟨1, ![1]⟩
abbrev S161700 : Shape := ⟨1, ![161700]⟩
abbrev S_ : Shape := ⟨0, ![]⟩

class Facts : Prop where
  bcast_S_S4x161700x8 : S_.BroadcastsInDim S4x161700x8 (![] : Fin 0 → Fin S4x161700x8.rank)
  reducesTo_S4x161700x8_S_d0_1_2 : S4x161700x8.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256x1 .f32) (main_arg8 : FVec F S1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1 .f32) (main_arg5 : FVec F S256x1 .f32) (main_arg6 : FVec F S1 .f32) (main_arg7 : FVec F S256x1 .f32) (main_arg8 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S4x161700x8 .f32) (main_arg1 : FVec F S8x256 .f32) (main_arg2 : FVec F S256 .f32) (main_arg3 : FVec F S256x1 .f32) (main_arg4 : FVec F S1 .f32) (main_arg5 : FVec F S256x1 .f32) (main_arg6 : FVec F S1 .f32) (main_arg7 : FVec F S256x1 .f32) (main_arg8 : FVec F S1 .f32) (main_arg9 : IVec S161700 32) (main_arg10 : IVec S161700 32) (main_arg11 : IVec S161700 32) : IVec S_ 1 :=
  let main_v0 : FVec F S4x161700x8 .f32 := Host.absf main_arg0
  let main_cst : FVec F S_ .f32 := constant S_ .f32 0x7F800000#32
  let main_v1 : FVec F S4x161700x8 .f32 := broadcastInDim S4x161700x8 ![] bcast_S_S4x161700x8 main_cst
  let main_v2 : IVec S4x161700x8 1 := cmpf .olt main_v0 main_v1
  let main_c : IVec S_ 1 := constantI S_ 1 1#1
  let main_v3 : IVec S_ 1 := (fun x v => Host.reduce IntOp.andi x v reducesTo_S4x161700x8_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_arg7 main_arg8 main_v13 main_v16
-- ==== Kernel.lean ====
abbrev S4x161700x8 : Shape := ⟨3, ![4, 161700, 8]⟩
abbrev S8x256 : Shape := ⟨2, ![8, 256]⟩
abbrev S256 : Shape := ⟨1, ![256]⟩
abbrev S256x1 : Shape := ⟨2, ![256, 1]⟩
abbrev S1 : Shape := ⟨1, ![1]⟩
abbrev S161700 : Shape := ⟨1, ![161700]⟩
abbrev S256x3 : Shape := ⟨2, ![256, 3]⟩
abbrev S3 : Shape := ⟨1, ![3]⟩
abbrev S4x3x161700 : Shape := ⟨3, ![4, 3, 161700]⟩
abbrev S1x8192x8 : Shape := ⟨3, ![1, 8192, 8]⟩
abbrev S1x3x8192 : Shape := ⟨3, ![1, 3, 8192]⟩
abbrev S8192x8 : Shape := ⟨2, ![8192, 8]⟩
abbrev S8192x256 : Shape := ⟨2, ![8192, 256]⟩
abbrev S1x256 : Shape := ⟨2, ![1, 256]⟩
abbrev S8192x3 : Shape := ⟨2, ![8192, 3]⟩
abbrev S1x3 : Shape := ⟨2, ![1, 3]⟩
abbrev S3x8192 : Shape := ⟨2, ![3, 8192]⟩
abbrev S4x485100 : Shape := ⟨2, ![4, 485100]⟩
abbrev S485100 : Shape := ⟨1, ![485100]⟩
abbrev S_ : Shape := ⟨0, ![]⟩
abbrev S4x4950x4950 : Shape := ⟨3, ![4, 4950, 4950]⟩
abbrev S485100x1 : Shape := ⟨2, ![485100, 1]⟩
abbrev S485100x2 : Shape := ⟨2, ![485100, 2]⟩

abbrev nBuf : Space → Nat
  | .hbm => 56
  | .vmem => 8
  | .smem => 0
  | _ => 0

abbrev bufTy : (tb : Table) → Fin (tcTables nBuf tb) → BufTy
  | .hbm, ⟨0, _⟩ => ⟨S4x161700x8, .f32⟩
  | .hbm, ⟨1, _⟩ => ⟨S8x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S256x1, .f32⟩
  | .hbm, ⟨6, _⟩ => ⟨S1, .f32⟩
  | .hbm, ⟨7, _⟩ => ⟨S256x1, .f32⟩
  | .hbm, ⟨8, _⟩ => ⟨S1, .f32⟩
  | .hbm, ⟨9, _⟩ => ⟨S161700, .i32⟩
  | .hbm, ⟨10, _⟩ => ⟨S161700, .i32⟩
  | .hbm, ⟨11, _⟩ => ⟨S161700, .i32⟩
  | .hbm, ⟨12, _⟩ => ⟨S256x3, .f32⟩
  | .hbm, ⟨13, _⟩ => ⟨S3, .f32⟩
  | .hbm, ⟨14, _⟩ => ⟨S4x3x161700, .f32⟩
  | .hbm, ⟨15, _⟩ => ⟨S4x485100, .f32⟩
  | .hbm, ⟨16, _⟩ => ⟨S485100, .i32⟩
  | .hbm, ⟨17, _⟩ => ⟨S485100, .i32⟩
  | .hbm, ⟨18, _⟩ => ⟨S_, .f32⟩
  | .hbm, ⟨19, _⟩ => ⟨S4x4950x4950, .f32⟩
  | .hbm, ⟨20, _⟩ => ⟨S_, .i32⟩
  | .hbm, ⟨21, _⟩ => ⟨S485100, .i32⟩
  | .hbm, ⟨22, _⟩ => ⟨S485100, .i1⟩
  | .hbm, ⟨23, _⟩ => ⟨S_, .i32⟩
  | .hbm, ⟨24, _⟩ => ⟨S485100, .i32⟩
  | .hbm, ⟨25, _⟩ => ⟨S485100, .i32⟩
  | .hbm, ⟨26, _⟩ => ⟨S485100, .i32⟩
  | .hbm, ⟨27, _⟩ => ⟨S_, .i32⟩
  | .hbm, ⟨28, _⟩ => ⟨S485100, .i32⟩
  | .hbm, ⟨29, _⟩ => ⟨S485100, .i1⟩
  | .hbm, ⟨30, _⟩ => ⟨S_, .i32⟩
  | .hbm, ⟨31, _⟩ => ⟨S485100, .i32⟩
  | .hbm, ⟨32, _⟩ => ⟨S485100, .i32⟩
  | .hbm, ⟨33, _⟩ => ⟨S485100, .i32⟩
  | .hbm, ⟨34, _⟩ => ⟨S485100x1, .i32⟩
  | .hbm, ⟨35, _⟩ => ⟨S485100x1, .i32⟩
  | .hbm, ⟨36, _⟩ => ⟨S485100x2, .i32⟩
  | .hbm, ⟨37, _⟩ => ⟨S4x4950x4950, .f32⟩
  | .hbm, ⟨38, _⟩ => ⟨S_, .i32⟩
  | .hbm, ⟨39, _⟩ => ⟨S485100, .i32⟩
  | .hbm, ⟨40, _⟩ => ⟨S485100, .i1⟩
  | .hbm, ⟨41, _⟩ => ⟨S_, .i32⟩
  | .hbm, ⟨42, _⟩ => ⟨S485100, .i32⟩
  | .hbm, ⟨43, _⟩ => ⟨S485100, .i32⟩
  | .hbm, ⟨44, _⟩ => ⟨S485100, .i32⟩
  | .hbm, ⟨45, _⟩ => ⟨S_, .i32⟩
  | .hbm, ⟨46, _⟩ => ⟨S485100, .i32⟩
  | .hbm, ⟨47, _⟩ => ⟨S485100, .i1⟩
  | .hbm, ⟨48, _⟩ => ⟨S_, .i32⟩
  | .hbm, ⟨49, _⟩ => ⟨S485100, .i32⟩
  | .hbm, ⟨50, _⟩ => ⟨S485100, .i32⟩
  | .hbm, ⟨51, _⟩ => ⟨S485100, .i32⟩
  | .hbm, ⟨52, _⟩ => ⟨S485100x1, .i32⟩
  | .hbm, ⟨53, _⟩ => ⟨S485100x1, .i32⟩
  | .hbm, ⟨54, _⟩ => ⟨S485100x2, .i32⟩
  | .hbm, ⟨55, _⟩ => ⟨S4x4950x4950, .f32⟩
  | .local _ .vmem, ⟨0, _⟩ => ⟨S1x8192x8, .f32⟩
  | .local _ .vmem, ⟨1, _⟩ => ⟨S1x8192x8, .f32⟩
  | .local _ .vmem, ⟨2, _⟩ => ⟨S8x256, .f32⟩
  | .local _ .vmem, ⟨3, _⟩ => ⟨S256, .f32⟩
  | .local _ .vmem, ⟨4, _⟩ => ⟨S256x3, .f32⟩
  | .local _ .vmem, ⟨5, _⟩ => ⟨S3, .f32⟩
  | .local _ .vmem, ⟨6, _⟩ => ⟨S1x3x8192, .f32⟩
  | .local _ .vmem, ⟨7, _⟩ => ⟨S1x3x8192, .f32⟩
  | _, _ => ⟨S4x161700x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  concatenates_S256x1_S256x1_S256x1_S256x3_d1 : Shape.Concatenates [S256x1, S256x1, S256x1] S256x3 1
  concatenates_S1_S1_S1_S3_d0 : Shape.Concatenates [S1, S1, S1] S3 0
  inb_S1x8192x8_S1x8192x8_0_0_0 : ∀ a, (![0, 0, 0] : Fin 3 → Nat) a + S1x8192x8.size a ≤ S1x8192x8.size a
  h_S1x8192x8 : 0 < S1x8192x8.numel
  shapeCasts_S1x8192x8_S8192x8 : S1x8192x8.ShapeCasts S8192x8
  inb_S8x256_S8x256_0_0 : ∀ a, (![0, 0] : Fin 2 → Nat) a + S8x256.size a ≤ S8x256.size a
  h_S8x256 : 0 < S8x256.numel
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S3_S3_0 : ∀ a, (![0] : Fin 1 → Nat) a + S3.size a ≤ S3.size a
  h_S3 : 0 < S3.numel
  shapeCasts_S3_S3 : S3.ShapeCasts S3
  shapeCasts_S3_S1x3 : S3.ShapeCasts S1x3
  broadcasts_S1x3_S8192x3 : S1x3.Broadcasts S8192x3
  transposes_S8192x3_p1_0_S3x8192 : S8192x3.Transposes [1, 0] S3x8192
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  shapeCasts_S3x8192_S1x3x8192 : S3x8192.ShapeCasts S1x3x8192
  shapeCasts_S4x3x161700_S4x485100 : S4x3x161700.ShapeCasts S4x485100
  concatenates_S161700_S161700_S161700_S485100_d0 : Shape.Concatenates [S161700, S161700, S161700] S485100 0
  bcast_S_S4x4950x4950 : S_.BroadcastsInDim S4x4950x4950 (![] : Fin 0 → Fin S4x4950x4950.rank)
  bcast_S_S485100 : S_.BroadcastsInDim S485100 (![] : Fin 0 → Fin S485100.rank)
  bcast_S485100_S485100x1_0 : S485100.BroadcastsInDim S485100x1 (![0] : Fin 1 → Fin S485100x1.rank)
  concatenates_S485100x1_S485100x1_S485100x2_d1 : Shape.Concatenates [S485100x1, S485100x1] S485100x2 1
  dot_S8192x8_S8x256_S8192x256_1_0_0_1_n_n_wf : DotDims.WF S8192x8 S8x256 S8192x256 [1] [0] [0] [1] [] []
  dot_S8192x256_S256x3_S8192x3_1_0_0_1_n_n_wf : DotDims.WF S8192x256 S256x3 S8192x3 [1] [0] [0] [1] [] []
  scatter_S4x4950x4950_S485100x2_S4x485100_0_12_12_1_wf : ScatterDims.WF S4x4950x4950 S485100x2 S4x485100 [0] [1, 2] [1, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x8192x8.size a < S4x161700x8.size a
  hwx0_0 : ∀ i : grid0.Coords, EltTy.bits .f32 = 32 ∨ (Rect.unit (s := S4x161700x8) (fun a => cc0_transform_0 i a * S1x8192x8.size a) (fun a => (Pipeline.Clip.of (cc0_transform_0 i a) (S1x8192x8.size a) (S4x161700x8.size a)).extent (S1x8192x8.size a)) fun a => Pipeline.Clip.inb (Pipeline.Clip.ok_of (hstart0_0 i a))).WholeWords (EltTy.packing .f32)
  hwxs0_0 : ∀ i : grid0.Coords, EltTy.bits .f32 = 32 ∨ (Rect.unit (s := S1x8192x8) (fun _ => 0) (fun a => (Pipeline.Clip.of (cc0_transform_0 i a) (S1x8192x8.size a) (S4x161700x8.size a)).extent (S1x8192x8.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x3.size a ≤ S256x3.size a
  hwx0_3 : ∀ i : grid0.Coords, EltTy.bits .f32 = 32 ∨ (Rect.block (s := S256x3) S256x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x3x8192.size a < S4x3x161700.size a
  hwx0_5 : ∀ i : grid0.Coords, EltTy.bits .f32 = 32 ∨ (Rect.unit (s := S4x3x161700) (fun a => cc0_transform_5 i a * S1x3x8192.size a) (fun a => (Pipeline.Clip.of (cc0_transform_5 i a) (S1x3x8192.size a) (S4x3x161700.size a)).extent (S1x3x8192.size a)) fun a => Pipeline.Clip.inb (Pipeline.Clip.ok_of (hstart0_5 i a))).WholeWords (EltTy.packing .f32)
  hwxs0_5 : ∀ i : grid0.Coords, EltTy.bits .f32 = 32 ∨ (Rect.unit (s := S1x3x8192) (fun _ => 0) (fun a => (Pipeline.Clip.of (cc0_transform_5 i a) (S1x3x8192.size a) (S4x3x161700.size a)).extent (S1x3x8192.size a)) fun a => (Nat.zero_add _).trans_le (Pipeline.Clip.extent_le (Pipeline.Clip.ok_of (hstart0_5 i a)))).WholeWords (EltTy.packing .f32)

variable [Facts₀]

def dot_S8192x8_S8x256_S8192x256_1_0_0_1_n_n : DotDims S8192x8 S8x256 S8192x256 where
  lhsContracting := [1]
  rhsContracting := [0]
  lhsNonContracting := [0]
  rhsNonContracting := [1]
  lhsBatch := []
  rhsBatch := []
  wf := dot_S8192x8_S8x256_S8192x256_1_0_0_1_n_n_wf
def dot_S8192x256_S256x3_S8192x3_1_0_0_1_n_n : DotDims S8192x256 S256x3 S8192x3 where
  lhsContracting := [1]
  rhsContracting := [0]
  lhsNonContracting := [0]
  rhsNonContracting := [1]
  lhsBatch := []
  rhsBatch := []
  wf := dot_S8192x256_S256x3_S8192x3_1_0_0_1_n_n_wf
def scatter_S4x4950x4950_S485100x2_S4x485100_0_12_12_1 : ScatterDims S4x4950x4950 S485100x2 S4x485100 where
  updateWindowDims := [0]
  insertedWindowDims := [1, 2]
  scatterDimsToOperandDims := [1, 2]
  indexVectorDim := 1
  wf := scatter_S4x4950x4950_S485100x2_S4x485100_0_12_12_1_wf

abbrev win0_0 : Pipeline.Window sig grid0 :=
  Pipeline.Window.ofSpecClip (Memref.whole main_arg0) S1x8192x8.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v2) S1x3x8192.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x161700x8 : Shape := ⟨3, ![4, 161700, 8]⟩
abbrev S8x256 : Shape := ⟨2, ![8, 256]⟩
abbrev S256 : Shape := ⟨1, ![256]⟩
abbrev S256x1 : Shape := ⟨2, ![256, 1]⟩
abbrev S1 : Shape := ⟨1, ![1]⟩
abbrev S161700 : Shape := ⟨1, ![161700]⟩
abbrev S4x161700x256 : Shape := ⟨3, ![4, 161700, 256]⟩
abbrev S1x1x256 : Shape := ⟨3, ![1, 1, 256]⟩
abbrev S_ : Shape := ⟨0, ![]⟩
abbrev S4x161700x1 : Shape := ⟨3, ![4, 161700, 1]⟩
abbrev S1x1x1 : Shape := ⟨3, ![1, 1, 1]⟩
abbrev S4x161700 : Shape := ⟨2, ![4, 161700]⟩
abbrev S485100 : Shape := ⟨1, ![485100]⟩
abbrev S4x485100 : Shape := ⟨2, ![4, 485100]⟩
abbrev S4x4950x4950 : Shape := ⟨3, ![4, 4950, 4950]⟩
abbrev S485100x1 : Shape := ⟨2, ![485100, 1]⟩
abbrev S485100x2 : Shape := ⟨2, ![485100, 2]⟩

abbrev nBuf : Space → Nat
  | .hbm => 74
  | .vmem => 0
  | .smem => 0
  | _ => 0

abbrev bufTy : (tb : Table) → Fin (tcTables nBuf tb) → BufTy
  | .hbm, ⟨0, _⟩ => ⟨S4x161700x8, .f32⟩
  | .hbm, ⟨1, _⟩ => ⟨S8x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S256x1, .f32⟩
  | .hbm, ⟨6, _⟩ => ⟨S1, .f32⟩
  | .hbm, ⟨7, _⟩ => ⟨S256x1, .f32⟩
  | .hbm, ⟨8, _⟩ => ⟨S1, .f32⟩
  | .hbm, ⟨9, _⟩ => ⟨S161700, .i32⟩
  | .hbm, ⟨10, _⟩ => ⟨S161700, .i32⟩
  | .hbm, ⟨11, _⟩ => ⟨S161700, .i32⟩
  | .hbm, ⟨12, _⟩ => ⟨S4x161700x256, .f32⟩
  | .hbm, ⟨13, _⟩ => ⟨S1x1x256, .f32⟩
  | .hbm, ⟨14, _⟩ => ⟨S4x161700x256, .f32⟩
  | .hbm, ⟨15, _⟩ => ⟨S4x161700x256, .f32⟩
  | .hbm, ⟨16, _⟩ => ⟨S_, .f32⟩
  | .hbm, ⟨17, _⟩ => ⟨S4x161700x256, .f32⟩
  | .hbm, ⟨18, _⟩ => ⟨S4x161700x256, .f32⟩
  | .hbm, ⟨19, _⟩ => ⟨S4x161700x1, .f32⟩
  | .hbm, ⟨20, _⟩ => ⟨S1x1x1, .f32⟩
  | .hbm, ⟨21, _⟩ => ⟨S4x161700x1, .f32⟩
  | .hbm, ⟨22, _⟩ => ⟨S4x161700x1, .f32⟩
  | .hbm, ⟨23, _⟩ => ⟨S4x161700x1, .f32⟩
  | .hbm, ⟨24, _⟩ => ⟨S4x161700, .f32⟩
  | .hbm, ⟨25, _⟩ => ⟨S4x161700x1, .f32⟩
  | .hbm, ⟨26, _⟩ => ⟨S1x1x1, .f32⟩
  | .hbm, ⟨27, _⟩ => ⟨S4x161700x1, .f32⟩
  | .hbm, ⟨28, _⟩ => ⟨S4x161700x1, .f32⟩
  | .hbm, ⟨29, _⟩ => ⟨S4x161700x1, .f32⟩
  | .hbm, ⟨30, _⟩ => ⟨S4x161700, .f32⟩
  | .hbm, ⟨31, _⟩ => ⟨S4x161700x1, .f32⟩
  | .hbm, ⟨32, _⟩ => ⟨S1x1x1, .f32⟩
  | .hbm, ⟨33, _⟩ => ⟨S4x161700x1, .f32⟩
  | .hbm, ⟨34, _⟩ => ⟨S4x161700x1, .f32⟩
  | .hbm, ⟨35, _⟩ => ⟨S4x161700x1, .f32⟩
  | .hbm, ⟨36, _⟩ => ⟨S4x161700, .f32⟩
  | .hbm, ⟨37, _⟩ => ⟨S_, .f32⟩
  | .hbm, ⟨38, _⟩ => ⟨S4x161700, .f32⟩
  | .hbm, ⟨39, _⟩ => ⟨S4x161700, .f32⟩
  | .hbm, ⟨40, _⟩ => ⟨S4x161700, .f32⟩
  | .hbm, ⟨41, _⟩ => ⟨S_, .f32⟩
  | .hbm, ⟨42, _⟩ => ⟨S4x161700, .f32⟩
  | .hbm, ⟨43, _⟩ => ⟨S4x161700, .f32⟩
  | .hbm, ⟨44, _⟩ => ⟨S4x161700, .f32⟩
  | .hbm, ⟨45, _⟩ => ⟨S_, .f32⟩
  | .hbm, ⟨46, _⟩ => ⟨S4x161700, .f32⟩
  | .hbm, ⟨47, _⟩ => ⟨S4x161700, .f32⟩
  | .hbm, ⟨48, _⟩ => ⟨S4x161700, .f32⟩
  | .hbm, ⟨49, _⟩ => ⟨S485100, .i32⟩
  | .hbm, ⟨50, _⟩ => ⟨S485100, .i32⟩
  | .hbm, ⟨51, _⟩ => ⟨S4x485100, .f32⟩
  | .hbm, ⟨52, _⟩ => ⟨S_, .f32⟩
  | .hbm, ⟨53, _⟩ => ⟨S4x4950x4950, .f32⟩
  | .hbm, ⟨54, _⟩ => ⟨S_, .i32⟩
  | .hbm, ⟨55, _⟩ => ⟨S485100, .i32⟩
  | .hbm, ⟨56, _⟩ => ⟨S485100, .i1⟩
  | .hbm, ⟨57, _⟩ => ⟨S_, .i32⟩
  | .hbm, ⟨58, _⟩ => ⟨S485100, .i32⟩
  | .hbm, ⟨59, _⟩ => ⟨S485100, .i32⟩
  | .hbm, ⟨60, _⟩ => ⟨S485100, .i32⟩
  | .hbm, ⟨61, _⟩ => ⟨S_, .i32⟩
  | .hbm, ⟨62, _⟩ => ⟨S485100, .i32⟩
  | .hbm, ⟨63, _⟩ => ⟨S485100, .i1⟩
  | .hbm, ⟨64, _⟩ => ⟨S_, .i32⟩
  | .hbm, ⟨65, _⟩ => ⟨S485100, .i32⟩
  | .hbm, ⟨66, _⟩ => ⟨S485100, .i32⟩
  | .hbm, ⟨67, _⟩ => ⟨S485100, .i32⟩
  | .hbm, ⟨68, _⟩ => ⟨S485100x1, .i32⟩
  | .hbm, ⟨69, _⟩ => ⟨S485100x1, .i32⟩
  | .hbm, ⟨70, _⟩ => ⟨S485100x2, .i32⟩
  | .hbm, ⟨71, _⟩ => ⟨S4x4950x4950, .f32⟩
  | .hbm, ⟨72, _⟩ => ⟨S4x4950x4950, .f32⟩
  | .hbm, ⟨73, _⟩ => ⟨S4x4950x4950, .f32⟩
  | _, _ => ⟨S4x161700x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_c : Ref sig .tc := ⟨.hbm, 54, rfl⟩
abbrev main_v36 : Ref sig .tc := ⟨.hbm, 55, rfl⟩
abbrev main_v37 : Ref sig .tc := ⟨.hbm, 56, rfl⟩
abbrev main_c_3 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_4 : Ref sig .tc := ⟨.hbm, 61, rfl⟩
abbrev main_v41 : Ref sig .tc := ⟨.hbm, 62, rfl⟩
abbrev main_v42 : Ref sig .tc := ⟨.hbm, 63, rfl⟩
abbrev main_c_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x161700x256_0_1_2 : S1x1x256.BroadcastsInDim S4x161700x256 (![0, 1, 2] : Fin 3 → Fin S4x161700x256.rank)
  bcast_S_S4x161700x256 : S_.BroadcastsInDim S4x161700x256 (![] : Fin 0 → Fin S4x161700x256.rank)
  bcast_S1_S1x1x1_2 : S1.BroadcastsInDim S1x1x1 (![2] : Fin 1 → Fin S1x1x1.rank)
  bcast_S1x1x1_S4x161700x1_0_1_2 : S1x1x1.BroadcastsInDim S4x161700x1 (![0, 1, 2] : Fin 3 → Fin S4x161700x1.rank)
  shapeCasts_S4x161700x1_S4x161700 : S4x161700x1.ShapeCasts S4x161700
  bcast_S_S4x161700 : S_.BroadcastsInDim S4x161700 (![] : Fin 0 → Fin S4x161700.rank)
  concatenates_S161700_S161700_S161700_S485100_d0 : Shape.Concatenates [S161700, S161700, S161700] S485100 0
  concatenates_S4x161700_S4x161700_S4x161700_S4x485100_d1 : Shape.Concatenates [S4x161700, S4x161700, S4x161700] S4x485100 1
  bcast_S_S4x4950x4950 : S_.BroadcastsInDim S4x4950x4950 (![] : Fin 0 → Fin S4x4950x4950.rank)
  bcast_S_S485100 : S_.BroadcastsInDim S485100 (![] : Fin 0 → Fin S485100.rank)
  bcast_S485100_S485100x1_0 : S485100.BroadcastsInDim S485100x1 (![0] : Fin 1 → Fin S485100x1.rank)
  concatenates_S485100x1_S485100x1_S485100x2_d1 : Shape.Concatenates [S485100x1, S485100x1] S485100x2 1
  transposes_S4x4950x4950_S4x4950x4950_0_2_1 : S4x4950x4950.Transposes [0, 2, 1] S4x4950x4950
  dot_S4x161700x8_S8x256_S4x161700x256_2_0_01_1_n_n_wf : DotDims.WF S4x161700x8 S8x256 S4x161700x256 [2] [0] [0, 1] [1] [] []
  dot_S4x161700x256_S256x1_S4x161700x1_2_0_01_1_n_n_wf : DotDims.WF S4x161700x256 S256x1 S4x161700x1 [2] [0] [0, 1] [1] [] []
  scatter_S4x4950x4950_S485100x2_S4x485100_0_12_12_1_wf : ScatterDims.WF S4x4950x4950 S485100x2 S4x485100 [0] [1, 2] [1, 2] 1

variable [Facts₀]

def dot_S4x161700x8_S8x256_S4x161700x256_2_0_01_1_n_n : DotDims S4x161700x8 S8x256 S4x161700x256 where
  lhsContracting := [2]
  rhsContracting := [0]
  lhsNonContracting := [0, 1]
  rhsNonContracting := [1]
  lhsBatch := []
  rhsBatch := []
  wf := dot_S4x161700x8_S8x256_S4x161700x256_2_0_01_1_n_n_wf
def dot_S4x161700x256_S256x1_S4x161700x1_2_0_01_1_n_n : DotDims S4x161700x256 S256x1 S4x161700x1 where
  lhsContracting := [2]
  rhsContracting := [0]
  lhsNonContracting := [0, 1]
  rhsNonContracting := [1]
  lhsBatch := []
  rhsBatch := []
  wf := dot_S4x161700x256_S256x1_S4x161700x1_2_0_01_1_n_n_wf
def scatter_S4x4950x4950_S485100x2_S4x485100_0_12_12_1 : ScatterDims S4x4950x4950 S485100x2 S4x485100 where
  updateWindowDims := [0]
  insertedWindowDims := [1, 2]
  scatterDimsToOperandDims := [1, 2]
  indexVectorDim := 1
  wf := scatter_S4x4950x4950_S485100x2_S4x485100_0_12_12_1_wf

class Facts : Prop extends Facts₀ where

variable [Facts]
-- ==== Proof.AroundK.lean ====
/-
  @main of the program runs two host lines (the three head weights joined into one 256×3 matrix, the three head
  biases into one vector of three), then its one kernel region, then forty-one host lines (the reshape of the
  region's result, the index arithmetic and the two scatter-adds).  This module states what the region finds in
  every buffer it reads (the contents after the two leading lines), that none of the twelve argument arrays is
  written by any host line, and what a run of the region with given proof data implies for the argument arrays.
-/
import proofs.«107014_j70205535421261_2_alg».proof.Proof.Gen.Kernel.Launch
import proofs.«107014_j70205535421261_2_alg».proof.Proof.Gen.Kernel.Skeleton
import proofs.«107014_j70205535421261_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The buffers' contents when the region is entered: the launch contents after the two leading host lines. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the leading lines, the region, the trailing lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The trailing lines touch only the region's arrays and buffers the region does not use; -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- they allocate nothing; -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and none of them writes one of the region's six arrays (each writes its own result only). -/
theorem sfx_keeps : ∀ ops ∈ ([hostOps1] : List (List (HloOp τ sig (Elt F)))), ∀ op ∈ ops,
    ∀ w, Proc.devRef .tc (Pipeline.arrRef spec0 w) ∉ op.writes := by
  intro ops hops
  simp only [List.mem_cons, List.mem_nil_iff, or_false] at hops
  rcases hops with rfl
  refine List.forall_iff_forall_mem.mp ?_
  simp only [hostOps1, List.Forall, StableHlo.nullary_writes, StableHlo.unary_writes, StableHlo.binary_writes, StableHlo.ternary_writes, StableHlo.reshape_writes, StableHlo.nary_writes, Finset.mem_singleton]
  repeat' apply And.intro
  all_goals (intro w; fin_cases w <;> exact StableHlo.devRef_ne_of_ne (by decide))

/-- Neither leading line writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No trailing line writes argument 3, and it is none of the region's arrays: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No trailing line writes argument 4, and it is none of the region's arrays: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No trailing line writes argument 5, and it is none of the region's arrays: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No trailing line writes argument 6, and it is none of the region's arrays: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No trailing line writes argument 7, and it is none of the region's arrays: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No trailing line writes argument 8, and it is none of the region's arrays: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No trailing line writes argument 9, and it is none of the region's arrays: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No trailing line writes argument 10, and it is none of the region's arrays: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No trailing line writes argument 11, and it is none of the region's arrays: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- Window w's block at grid point t (its part inside the array), read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- From a run of @main whose post gives every array of the region at what the proof data compute and every other
    buffer at what the trailing lines leave, the twelve argument arrays end as launched: arguments 0, 1, 2 are input
    arrays of the region (never written), the other nine are untouched by the region and by every host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
    (((h c).1 0).trans (((dats 0 c).arrAt_in (0 : Fin 6) rfl _).trans ((hA c 0).trans (V_main_arg0 m c)))),
    (((h c).1 1).trans (((dats 0 c).arrAt_in (1 : Fin 6) rfl _).trans ((hA c 1).trans (V_main_arg1 m c)))),
    (((h c).1 2).trans (((dats 0 c).arrAt_in (2 : Fin 6) rfl _).trans ((hA c 2).trans (V_main_arg2 m c)))),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c))⟩) h

end Cert.Kernel.Hand

end
-- ==== Proof.BodyK.lean ====
/-
  The kernel body, run once on whole staging buffers: it reads the five input buffers (a triplet block of 8192 rows
  of eight features, the 8×256 hidden weight, the 256 hidden biases, the 256×3 joined head weight, the three joined
  head biases), reads the result buffer without using what it read, and overwrites the whole 1×3×8192 result buffer
  with one value computed from the five inputs.  The inputs are left as they were.
-/
import proofs.«107014_j70205535421261_2_alg».proof.Proof.Gen.Kernel.Launch
import proofs.«107014_j70205535421261_2_alg».proof.Proof.Gen.Kernel.Skeleton
import proofs.«107014_j70205535421261_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole-buffer rectangles the body reads and writes through. -/
abbrev rX : Rect S1x8192x8 := Rect.unit (s := S1x8192x8) ![0, 0, 0] S1x8192x8.size inb_S1x8192x8_S1x8192x8_0_0_0
abbrev rWh : Rect S8x256 := Rect.unit (s := S8x256) ![0, 0] S8x256.size inb_S8x256_S8x256_0_0
abbrev rBh : Rect S256 := Rect.unit (s := S256) ![0] S256.size inb_S256_S256_0
abbrev rWc : Rect S256x3 := Rect.unit (s := S256x3) ![0, 0] S256x3.size inb_S256x3_S256x3_0_0
abbrev rBc : Rect S3 := Rect.unit (s := S3) ![0] S3.size inb_S3_S3_0
abbrev rO : Rect S1x3x8192 := Rect.unit (s := S1x3x8192) ![0, 0, 0] S1x3x8192.size inb_S1x3x8192_S1x3x8192_0_0_0

/-- What the result buffer holds after the body: its one store, of the value computed from the five loads. -/
def outBuf (x : Vec F S1x8192x8 .f32) (wh : Vec F S8x256 .f32) (bh : Vec F S256 .f32) (wc : Vec F S256x3 .f32) (bc : Vec F S3 .f32) :
    Vec F S1x3x8192 .f32 :=
  View.canon [⟨rO, k0_pay1 (View.ld x rX) (View.ld wh rWh) (View.ld bh rBh) (View.ld wc rWc) (View.ld bc rBc)⟩]

/-- The one store covers the result buffer. -/
theorem cover_out (p0 : Vec F S1x3x8192 .f32) (y : S1x3x8192.Idx) :
    ∃ pc ∈ ([⟨rO, p0⟩] : List (View.Piece (Elt F) S1x3x8192 .f32)), y ∈ pc.1.set :=
  View.cover_of_tiled [⟨rO, p0⟩] S1x3x8192.size (by rfl) y

set_option maxHeartbeats 1000000 in
/-- The body on whole staging memrefs: the inputs at contents x, wh, bh, wc, bc and the result buffer at anything run to
    the inputs unchanged and the result buffer at `outBuf` of the inputs. -/
theorem sound_kernel (c : Dev nD) (E : Set ℕ) (i : grid0.Coords)
    (arg2 : Memref sig .tc .vmem S1x8192x8 .f32) (harg2 : arg2.IsWhole) (arg3 : Memref sig .tc .vmem S8x256 .f32) (harg3 : arg3.IsWhole)
    (arg4 : Memref sig .tc .vmem S256 .f32) (harg4 : arg4.IsWhole) (arg5 : Memref sig .tc .vmem S256x3 .f32) (harg5 : arg5.IsWhole)
    (arg6 : Memref sig .tc .vmem S3 .f32) (harg6 : arg6.IsWhole) (arg7 : Memref sig .tc .vmem S1x3x8192 .f32) (harg7 : arg7.IsWhole)
    (x : Vec F S1x8192x8 .f32) (wh : Vec F S8x256 .f32) (bh : Vec F S256 .f32) (wc : Vec F S256x3 .f32) (bc : Vec F S3 .f32)
    (K : PUnit → sProp 𝕄) :
    iprop(owns (c : Thread nD τ) arg2 fullShare x ∗ owns (c : Thread nD τ) arg3 fullShare wh ∗ owns (c : Thread nD τ) arg4 fullShare bh
        ∗ owns (c : Thread nD τ) arg5 fullShare wc ∗ owns (c : Thread nD τ) arg6 fullShare bc ∗ (∃ d, owns (c : Thread nD τ) arg7 fullShare d)
        ∗ (iprop(owns (c : Thread nD τ) arg2 fullShare x ∗ owns (c : Thread nD τ) arg3 fullShare wh ∗ owns (c : Thread nD τ) arg4 fullShare bh
            ∗ owns (c : Thread nD τ) arg5 fullShare wc ∗ owns (c : Thread nD τ) arg6 fullShare bc
            ∗ owns (c : Thread nD τ) arg7 fullShare (outBuf x wh bh wc bc)) -∗ K ⟨⟩))
      ⊢ wp frame (wpE (defs₀ (F := F)) Variants.none c none) E (cc0__mlp_kernel i arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-- Through whole-buffer rectangles a load reads the buffer and the one store is the buffer: the result buffer ends
    at the computed value of the five input buffers. -/
theorem outBuf_eq (x : Vec F S1x8192x8 .f32) (wh : Vec F S8x256 .f32) (bh : Vec F S256 .f32) (wc : Vec F S256x3 .f32) (bc : Vec F S3 .f32) :
    outBuf x wh bh wc bc = k0_pay1 x wh bh wc bc := by
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a <;> rfl
  unfold outBuf
  rw [View.canon_unit_zero hz3]
  simp only [View.ld_unit_zero (S := S1x8192x8) hz3, View.ld_unit_zero (S := S8x256) hz2, View.ld_unit_zero (S := S256) hz1,
    View.ld_unit_zero (S := S256x3) hz2, View.ld_unit_zero (S := S3) hz1]

end Cert.Kernel.Hand

end
-- ==== Proof.ForgetK.lean ====
/-
  The frame of the program: it runs to the end without a fault and leaves its twelve argument arrays as launched.
  Nothing is said here of what the region writes into its result array: the result window's staging buffer is handed
  to the body at any contents and taken back at any contents.  The five input windows are found at their blocks at
  every grid point — the triplet block, cut at the array's end at the last point of each batch, on the rows inside
  the array; the four small operands whole — and the body leaves them as it found them.
-/
import proofs.«107014_j70205535421261_2_alg».proof.Proof.AroundK
import proofs.«107014_j70205535421261_2_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result window is forgotten. -/
def forgets0 : Fin 6 → Bool := fun w => w.val == 5

/-- The buffers the trailing host lines write: their own results. -/
def tailWrites : Finset (Ref sig .tc) := {main_v3, main_v4, main_v5, main_cst, main_v6, main_c, main_v7, main_v8, main_c_0, main_v9, main_v10, main_v11, main_c_1, main_v12, main_v13, main_c_2, main_v14, main_v15, main_v16, main_v17, main_v18, main_v19, main_v20, main_c_3, main_v21, main_v22, main_c_4, main_v23, main_v24, main_v25, main_c_5, main_v26, main_v27, main_c_6, main_v28, main_v29, main_v30, main_v31, main_v32, main_v33, main_v34}

theorem tail_writes : ∀ ops ∈ ([hostOps1] : List (List (HloOp τ sig (Elt F)))), ∀ op ∈ ops,
    ∀ b : Ref sig .tc, Proc.devRef .tc b ∈ op.writes → b ∈ tailWrites := by
  intro ops hops
  simp only [List.mem_cons, List.mem_nil_iff, or_false] at hops
  rcases hops with rfl
  refine List.forall_iff_forall_mem.mp ?_
  simp only [hostOps1, List.Forall, StableHlo.nullary_writes, StableHlo.unary_writes, StableHlo.binary_writes, StableHlo.ternary_writes, StableHlo.reshape_writes, StableHlo.nary_writes, Finset.mem_singleton]
  repeat' apply And.intro
  all_goals (intro b hb; have hb' := Proc.devRef_injective _ hb; subst hb'; decide)

/-- The proof data: the arrays as the region finds them; after the body the triplet window's buffer at its block
    (filled out past the array's end with the zero word, which nothing reads), the four small operands' at their
    blocks, the result's at contents nothing names. -/
def fdats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter0 (c : Dev nD) (t : Fin cfg0.N) : (fdats m 0 c).after 0 t = win0_0.fill (grid0.coords t) (fun _ => Scalar.ofBits .f32 0#32) (iblk m c 0 t) := by dsimp only [fdats]
theorem fafter1 (c : Dev nD) (t : Fin cfg0.N) : (fdats m 0 c).after 1 t = iblk m c 1 t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]
theorem fafter4 (c : Dev nD) (t : Fin cfg0.N) : (fdats m 0 c).after 4 t = iblk m c 4 t := by dsimp only [fdats]

/-- The triplet window is fetched at every point: its buffer holds the block on the rows inside the array. -/
theorem fbefore0 (c : Dev nD) (t : Fin cfg0.N) (d) :
    (fdats m 0 c).before 0 t d = win0_0.fill (grid0.coords t) d (iblk m c 0 t) := by
  rw [(fdats m 0 c).before_fetched 0 t (fetch0_0 t) d]
  unfold Dat.fetched Dat.blockOf iblk; rw [fA_eq]

/-- A small operand's buffer holds its one block at every point, fetched there (the first point) or not. -/
theorem fbefore1 (c : Dev nD) (t : Fin cfg0.N) (d) : (fdats m 0 c).before 1 t d = iblk m c 1 t :=
  ((fdats m 0 c).before_in_eq_fetched 1 rfl (fun _ => rfl) (fun _ _ _ => rfl) (fun t => by rw [fafter1]; unfold Dat.blockOf iblk; rw [fA_eq]; try rfl) t d).trans
    (by unfold Dat.fetched Dat.blockOf iblk; rw [fA_eq]; try rfl)
theorem fbefore2 (c : Dev nD) (t : Fin cfg0.N) (d) : (fdats m 0 c).before 2 t d = iblk m c 2 t :=
  ((fdats m 0 c).before_in_eq_fetched 2 rfl (fun _ => rfl) (fun _ _ _ => rfl) (fun t => by rw [fafter2]; unfold Dat.blockOf iblk; rw [fA_eq]; try rfl) t d).trans
    (by unfold Dat.fetched Dat.blockOf iblk; rw [fA_eq]; try rfl)
theorem fbefore3 (c : Dev nD) (t : Fin cfg0.N) (d) : (fdats m 0 c).before 3 t d = iblk m c 3 t :=
  ((fdats m 0 c).before_in_eq_fetched 3 rfl (fun _ => rfl) (fun _ _ _ => rfl) (fun t => by rw [fafter3]; unfold Dat.blockOf iblk; rw [fA_eq]; try rfl) t d).trans
    (by unfold Dat.fetched Dat.blockOf iblk; rw [fA_eq]; try rfl)
theorem fbefore4 (c : Dev nD) (t : Fin cfg0.N) (d) : (fdats m 0 c).before 4 t d = iblk m c 4 t :=
  ((fdats m 0 c).before_in_eq_fetched 4 rfl (fun _ => rfl) (fun _ _ _ => rfl) (fun t => by rw [fafter4]; unfold Dat.blockOf iblk; rw [fA_eq]; try rfl) t d).trans
    (by unfold Dat.fetched Dat.blockOf iblk; rw [fA_eq]; try rfl)

/-- What the body is handed at point t, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ X, owns (c : Thread nD τ) (st0_5 t) fullShare X))

/-- and what it hands back. -/
def fbodyPost (c : Dev nD) (t : Fin cfg0.N) : sProp 𝕄 :=
  iprop((fdats m 0 c).Φ t.succ ∗ (fdats m 0 c).owesAt () t.succ
    ∗ (∃ d, owns (c : Thread nD τ) (st0_0 t) fullShare ((win0 0).fill (grid0.coords t) d ((win0 0).cut (grid0.coords t) ((fdats m 0 c).after 0 t))))
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ (∃ X, owns (c : Thread nD τ) (st0_5 t) fullShare X))

/-- The body at any point: the inputs' buffers hold their blocks, so the body's run applies; the triplet buffer is
    handed back as found, which on the rows inside the array is the block. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  rw [show (fdats m 0 c).Φ t.succ = (fdats m 0 c).Φ t.castSucc from rfl,
    show (fdats m 0 c).owesAt () t.succ = (fdats m 0 c).owesAt () t.castSucc from rfl]
  iintro ⟨HΦ, Ho, ⟨%d0, H0⟩, ⟨%d1, H1⟩, ⟨%d2, H2⟩, ⟨%d3, H3⟩, ⟨%d4, H4⟩, ⟨%X5, H5⟩⟩
  rw [fbefore0 m c t d0, fbefore1 m c t d1, fbefore2 m c t d2, fbefore3 m c t d3, fbefore4 m c t d4]
  iapply (sound_kernel c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    have e : (win0 0).cut (grid0.coords t) ((fdats m 0 c).after 0 t) = iblk m c 0 t := by
      rw [fafter0]; exact win0_0.cut_fill _ _ _
    rw [e]; iexact H0
  isplitl [H1]; · rw [fafter1]; iexact H1
  isplitl [H2]; · rw [fafter2]; iexact H2
  isplitl [H3]; · rw [fafter3]; iexact H3
  isplitl [H4]; · rw [fafter4]; iexact H4
  iexists _; iexact H5

/-- The body obligation with the result window forgotten. -/
theorem fbody_obligation (c : Dev nD) : BodyObligationLoose (fdats (F := F) m 0 c) (defs₀ (F := F)) Variants.none () Set.univ forgets0 := fun t => by
  rw [bigSep_W0, bigSep_W0]
  exact fsound_body m c t

set_option backward.isDefEq.respectTransparency.types false in
/-- Every weakly fair execution of @main terminates without a fault; every input array of the region ends as the
    region found it, and every buffer that is neither an array of the region nor written by a trailing host line
    ends as the region found it. -/
theorem frun_main : θ_run defs (onTc (τ := τ) (main (F := F))) (s₀ m ρ)
    (Pipeline.RDat.FramePostR (cfgs 0) (fun c => (fdats m 0 c).toRForget forgets0) tailWrites (V m)) :=
  Pipeline.RDat.θ_run_frame_around_T cfgs (0 : Fin 1) launch0 defs₀ Variants.none (fun c => (fdats m 0 c).toRForget forgets0) tailWrites m ρ main
    (hbody := fun c => (fbody_obligation m c).toRForget) (hshare := fun c => ((fdats m 0 c).toRForget forgets0).share_full fun _ => rfl)
    (howed := fun _ _ => rfl) (V₀ := V0 m) (opss := [hostOps1]) (hsub := sfx_sub) (hfresh := sfx_fresh) (hkeep := sfx_keeps) (hT := tail_writes)
    (hmain := hmain m Variants.none) (hA := fA_eq m) (hΦ := fun _ _ => rfl)

/-- The frame: the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
    (Eq.mp (congrFun (((fdats m 0 c).toRForget forgets0).ArrAt_in 0 rfl _) _) ((h c).1 0)).trans ((fA_eq m c 0).trans (V_main_arg0 m c)),
    (Eq.mp (congrFun (((fdats m 0 c).toRForget forgets0).ArrAt_in 1 rfl _) _) ((h c).1 1)).trans ((fA_eq m c 1).trans (V_main_arg1 m c)),
    (Eq.mp (congrFun (((fdats m 0 c).toRForget forgets0).ArrAt_in 2 rfl _) _) ((h c).1 2)).trans ((fA_eq m c 2).trans (V_main_arg2 m c)),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c),
    ((h c).2 main_arg5 (Finset.mem_sdiff.mpr ⟨Pipeline.mem_restRefs_of main_arg5 (by decide) (by decide), by decide⟩)).trans (V_main_arg5 m c),
    ((h c).2 main_arg6 (Finset.mem_sdiff.mpr ⟨Pipeline.mem_restRefs_of main_arg6 (by decide) (by decide), by decide⟩)).trans (V_main_arg6 m c),
    ((h c).2 main_arg7 (Finset.mem_sdiff.mpr ⟨Pipeline.mem_restRefs_of main_arg7 (by decide) (by decide), by decide⟩)).trans (V_main_arg7 m c),
    ((h c).2 main_arg8 (Finset.mem_sdiff.mpr ⟨Pipeline.mem_restRefs_of main_arg8 (by decide) (by decide), by decide⟩)).trans (V_main_arg8 m c),
    ((h c).2 main_arg9 (Finset.mem_sdiff.mpr ⟨Pipeline.mem_restRefs_of main_arg9 (by decide) (by decide), by decide⟩)).trans (V_main_arg9 m c),
    ((h c).2 main_arg10 (Finset.mem_sdiff.mpr ⟨Pipeline.mem_restRefs_of main_arg10 (by decide) (by decide), by decide⟩)).trans (V_main_arg10 m c),
    ((h c).2 main_arg11 (Finset.mem_sdiff.mpr ⟨Pipeline.mem_restRefs_of main_arg11 (by decide) (by decide), by decide⟩)).trans (V_main_arg11 m c)⟩) (frun_main m ρ)

end Cert.Kernel.Hand

end
-- ==== Proof.AroundI.lean ====
/-
  @main of the program runs two host lines (the three head weights joined into one 256×3 matrix, the three head
  biases into one vector of three), then its one kernel region, then forty-one host lines (the reshape of the
  region's result, the index arithmetic and the two scatter-adds).  This module states what the region finds in
  every buffer it reads (the contents after the two leading lines), that none of the twelve argument arrays is
  written by any host line, and what a run of the region with given proof data implies for the argument arrays.
-/
import proofs.«107014_j70205535421261_2_alg».proof.Proof.Gen.KernelIdeal.Launch
import proofs.«107014_j70205535421261_2_alg».proof.Proof.Gen.KernelIdeal.Skeleton
import proofs.«107014_j70205535421261_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The buffers' contents when the region is entered: the launch contents after the two leading host lines. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the leading lines, the region, the trailing lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The trailing lines touch only the region's arrays and buffers the region does not use; -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- they allocate nothing; -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and none of them writes one of the region's six arrays (each writes its own result only). -/
theorem sfx_keeps : ∀ ops ∈ ([hostOps1] : List (List (HloOp τ sig (Elt F)))), ∀ op ∈ ops,
    ∀ w, Proc.devRef .tc (Pipeline.arrRef spec0 w) ∉ op.writes := by
  intro ops hops
  simp only [List.mem_cons, List.mem_nil_iff, or_false] at hops
  rcases hops with rfl
  refine List.forall_iff_forall_mem.mp ?_
  simp only [hostOps1, List.Forall, StableHlo.nullary_writes, StableHlo.unary_writes, StableHlo.binary_writes, StableHlo.ternary_writes, StableHlo.reshape_writes, StableHlo.nary_writes, Finset.mem_singleton]
  repeat' apply And.intro
  all_goals (intro w; fin_cases w <;> exact StableHlo.devRef_ne_of_ne (by decide))

/-- Neither leading line writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Neither leading line writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No trailing line writes argument 3, and it is none of the region's arrays: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No trailing line writes argument 4, and it is none of the region's arrays: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No trailing line writes argument 5, and it is none of the region's arrays: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No trailing line writes argument 6, and it is none of the region's arrays: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No trailing line writes argument 7, and it is none of the region's arrays: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No trailing line writes argument 8, and it is none of the region's arrays: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No trailing line writes argument 9, and it is none of the region's arrays: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No trailing line writes argument 10, and it is none of the region's arrays: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No trailing line writes argument 11, and it is none of the region's arrays: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- Window w's block at grid point t (its part inside the array), read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- From a run of @main whose post gives every array of the region at what the proof data compute and every other
    buffer at what the trailing lines leave, the twelve argument arrays end as launched: arguments 0, 1, 2 are input
    arrays of the region (never written), the other nine are untouched by the region and by every host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
    (((h c).1 0).trans (((dats 0 c).arrAt_in (0 : Fin 6) rfl _).trans ((hA c 0).trans (V_main_arg0 m c)))),
    (((h c).1 1).trans (((dats 0 c).arrAt_in (1 : Fin 6) rfl _).trans ((hA c 1).trans (V_main_arg1 m c)))),
    (((h c).1 2).trans (((dats 0 c).arrAt_in (2 : Fin 6) rfl _).trans ((hA c 2).trans (V_main_arg2 m c)))),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c))⟩) h

end Cert.KernelIdeal.Hand

end
-- ==== Proof.BodyI.lean ====
/-
  The kernel body, run once on whole staging buffers: it reads the five input buffers (a triplet block of 8192 rows
  of eight features, the 8×256 hidden weight, the 256 hidden biases, the 256×3 joined head weight, the three joined
  head biases), reads the result buffer without using what it read, and overwrites the whole 1×3×8192 result buffer
  with one value computed from the five inputs.  The inputs are left as they were.
-/
import proofs.«107014_j70205535421261_2_alg».proof.Proof.Gen.KernelIdeal.Launch
import proofs.«107014_j70205535421261_2_alg».proof.Proof.Gen.KernelIdeal.Skeleton
import proofs.«107014_j70205535421261_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole-buffer rectangles the body reads and writes through. -/
abbrev rX : Rect S1x8192x8 := Rect.unit (s := S1x8192x8) ![0, 0, 0] S1x8192x8.size inb_S1x8192x8_S1x8192x8_0_0_0
abbrev rWh : Rect S8x256 := Rect.unit (s := S8x256) ![0, 0] S8x256.size inb_S8x256_S8x256_0_0
abbrev rBh : Rect S256 := Rect.unit (s := S256) ![0] S256.size inb_S256_S256_0
abbrev rWc : Rect S256x3 := Rect.unit (s := S256x3) ![0, 0] S256x3.size inb_S256x3_S256x3_0_0
abbrev rBc : Rect S3 := Rect.unit (s := S3) ![0] S3.size inb_S3_S3_0
abbrev rO : Rect S1x3x8192 := Rect.unit (s := S1x3x8192) ![0, 0, 0] S1x3x8192.size inb_S1x3x8192_S1x3x8192_0_0_0

/-- What the result buffer holds after the body: its one store, of the value computed from the five loads. -/
def outBuf (x : Vec F S1x8192x8 .f32) (wh : Vec F S8x256 .f32) (bh : Vec F S256 .f32) (wc : Vec F S256x3 .f32) (bc : Vec F S3 .f32) :
    Vec F S1x3x8192 .f32 :=
  View.canon [⟨rO, k0_pay1 (View.ld x rX) (View.ld wh rWh) (View.ld bh rBh) (View.ld wc rWc) (View.ld bc rBc)⟩]

/-- The one store covers the result buffer. -/
theorem cover_out (p0 : Vec F S1x3x8192 .f32) (y : S1x3x8192.Idx) :
    ∃ pc ∈ ([⟨rO, p0⟩] : List (View.Piece (Elt F) S1x3x8192 .f32)), y ∈ pc.1.set :=
  View.cover_of_tiled [⟨rO, p0⟩] S1x3x8192.size (by rfl) y

set_option maxHeartbeats 1000000 in
/-- The body on whole staging memrefs: the inputs at contents x, wh, bh, wc, bc and the result buffer at anything run to
    the inputs unchanged and the result buffer at `outBuf` of the inputs. -/
theorem sound_kernel (c : Dev nD) (E : Set ℕ) (i : grid0.Coords)
    (arg2 : Memref sig .tc .vmem S1x8192x8 .f32) (harg2 : arg2.IsWhole) (arg3 : Memref sig .tc .vmem S8x256 .f32) (harg3 : arg3.IsWhole)
    (arg4 : Memref sig .tc .vmem S256 .f32) (harg4 : arg4.IsWhole) (arg5 : Memref sig .tc .vmem S256x3 .f32) (harg5 : arg5.IsWhole)
    (arg6 : Memref sig .tc .vmem S3 .f32) (harg6 : arg6.IsWhole) (arg7 : Memref sig .tc .vmem S1x3x8192 .f32) (harg7 : arg7.IsWhole)
    (x : Vec F S1x8192x8 .f32) (wh : Vec F S8x256 .f32) (bh : Vec F S256 .f32) (wc : Vec F S256x3 .f32) (bc : Vec F S3 .f32)
    (K : PUnit → sProp 𝕄) :
    iprop(owns (c : Thread nD τ) arg2 fullShare x ∗ owns (c : Thread nD τ) arg3 fullShare wh ∗ owns (c : Thread nD τ) arg4 fullShare bh
        ∗ owns (c : Thread nD τ) arg5 fullShare wc ∗ owns (c : Thread nD τ) arg6 fullShare bc ∗ (∃ d, owns (c : Thread nD τ) arg7 fullShare d)
        ∗ (iprop(owns (c : Thread nD τ) arg2 fullShare x ∗ owns (c : Thread nD τ) arg3 fullShare wh ∗ owns (c : Thread nD τ) arg4 fullShare bh
            ∗ owns (c : Thread nD τ) arg5 fullShare wc ∗ owns (c : Thread nD τ) arg6 fullShare bc
            ∗ owns (c : Thread nD τ) arg7 fullShare (outBuf x wh bh wc bc)) -∗ K ⟨⟩))
      ⊢ wp frame (wpE (defs₀ (F := F)) Variants.none c none) E (cc0__mlp_kernel i arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-- Through whole-buffer rectangles a load reads the buffer and the one store is the buffer: the result buffer ends
    at the computed value of the five input buffers. -/
theorem outBuf_eq (x : Vec F S1x8192x8 .f32) (wh : Vec F S8x256 .f32) (bh : Vec F S256 .f32) (wc : Vec F S256x3 .f32) (bc : Vec F S3 .f32) :
    outBuf x wh bh wc bc = k0_pay1 x wh bh wc bc := by
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a <;> rfl
  unfold outBuf
  rw [View.canon_unit_zero hz3]
  simp only [View.ld_unit_zero (S := S1x8192x8) hz3, View.ld_unit_zero (S := S8x256) hz2, View.ld_unit_zero (S := S256) hz1,
    View.ld_unit_zero (S := S256x3) hz2, View.ld_unit_zero (S := S3) hz1]

end Cert.KernelIdeal.Hand

end
-- ==== Proof.Spec.lean ====
/-
  The specification both programs are compared against, stated once over the argument arrays and read on the
  extended reals.

  A triplet m of a batch b has eight error features x[b,m,·].  The shared hidden layer is
      hid b m h = max (Σ_f x[b,m,f] · W_h[f,h] + b_h[h]) 0,
  and each of the three heads (W, β) ∈ {(W1,b1), (W2,b2), (W3,b3)} gives the sign-like value
      chan b m = cos (π̃ · tanh (Σ_h hid b m h · W[h,0] + β[0])),
  where π̃ is the single-precision word nearest π (the same word in both programs, never evaluated).
  The update array lists, for every batch, the 161700 values of head 1, then of head 2, then of head 3.
-/
import Idealize.ShloMosaic.PureOps.Ideal
import Idealize.ShloMosaic.Lib.ValueIdx

noncomputable section

open scoped BigOperators

namespace Cert.SigmaSpec

open Idealize.ShloMosaic Idealize.ShloMosaic.ValueIdx

abbrev T4x161700x8 : Shape := ⟨3, ![4, 161700, 8]⟩
abbrev T8x256 : Shape := ⟨2, ![8, 256]⟩
abbrev T256 : Shape := ⟨1, ![256]⟩
abbrev T256x1 : Shape := ⟨2, ![256, 1]⟩
abbrev T1 : Shape := ⟨1, ![1]⟩
abbrev T4x485100 : Shape := ⟨2, ![4, 485100]⟩
abbrev T4x3x161700 : Shape := ⟨3, ![4, 3, 161700]⟩

/-- The single-precision word nearest π, as the extended real it denotes. -/
def piWord : EReal := Ideal.ofBits .f32 0x40490FDB#32

/-- The zero word. -/
def zeroWord : EReal := Ideal.ofBits .f32 0x00000000#32

/-- One unit of the shared hidden layer: the rectified affine image of a triplet's eight features. -/
def hid (x : T4x161700x8.Idx → EReal) (wh : T8x256.Idx → EReal) (bh : T256.Idx → EReal)
    (b : Fin 4) (m : Fin 161700) (h : Fin 256) : EReal :=
  max ((∑ f : Fin 8, x (ix3 b m f) * wh (ix2 f h)) + bh (ix1 h)) zeroWord

/-- One head at one triplet: cos (π̃ · tanh (hid · W + β)). -/
def chan (x : T4x161700x8.Idx → EReal) (wh : T8x256.Idx → EReal) (bh : T256.Idx → EReal)
    (w : T256x1.Idx → EReal) (β : T1.Idx → EReal) (b : Fin 4) (m : Fin 161700) : EReal :=
  Ideal.cos (piWord * Ideal.tanh ((∑ h : Fin 256, hid x wh bh b m h * w (ix2 h 0)) + β (ix1 0)))

/-- The three heads side by side, one row of three per triplet: entry (b, k, m) is head k at triplet m. -/
def heads (x : T4x161700x8.Idx → EReal) (wh : T8x256.Idx → EReal) (bh : T256.Idx → EReal)
    (w1 : T256x1.Idx → EReal) (b1 : T1.Idx → EReal) (w2 : T256x1.Idx → EReal) (b2 : T1.Idx → EReal)
    (w3 : T256x1.Idx → EReal) (b3 : T1.Idx → EReal) : T4x3x161700.Idx → EReal := fun j =>
  match j 1 with
  | ⟨0, _⟩ => chan x wh bh w1 b1 (j 0) (j 2)
  | ⟨1, _⟩ => chan x wh bh w2 b2 (j 0) (j 2)
  | ⟨2, _⟩ => chan x wh bh w3 b3 (j 0) (j 2)

/-- The update array: for batch b, position s < 161700 is head 1 at triplet s, 161700 ≤ s < 323400 head 2 at
    triplet s − 161700, and the rest head 3 at triplet s − 323400. -/
def upd (x : T4x161700x8.Idx → EReal) (wh : T8x256.Idx → EReal) (bh : T256.Idx → EReal)
    (w1 : T256x1.Idx → EReal) (b1 : T1.Idx → EReal) (w2 : T256x1.Idx → EReal) (b2 : T1.Idx → EReal)
    (w3 : T256x1.Idx → EReal) (b3 : T1.Idx → EReal) : T4x485100.Idx → EReal := fun j =>
  if h1 : (j 1).val < 161700 then chan x wh bh w1 b1 (j 0) ⟨(j 1).val, h1⟩
  else if h2 : (j 1).val < 323400 then chan x wh bh w2 b2 (j 0) ⟨(j 1).val - 161700, by omega⟩
  else chan x wh bh w3 b3 (j 0) ⟨(j 1).val - 323400, by have h3 : (j 1).val < 485100 := (j 1).isLt; omega⟩

end Cert.SigmaSpec

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.PayI.lean ====
/-
  The value the body stores, read at one entry on the extended reals.  Entry (0, k, r) of the stored 1×3×8192 value
  is head k of row r of the triplet block: the block's row r (eight features) goes through the hidden layer
  (a sum of eight products plus a bias, rectified), the 256 hidden units through the joined head weight's column k
  (a sum of 256 products plus the joined bias' entry k), then tanh, the product with the word nearest π, and cos.
  It depends on the block only through its row r.
-/
import proofs.«107014_j70205535421261_2_alg».proof.Proof.Gen.KernelIdeal.Skeleton
import proofs.«107014_j70205535421261_2_alg».proof.Proof.Spec
import proofs.«107014_j70205535421261_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section
open scoped BigOperators
namespace Cert.KernelIdeal.Hand
open Cert.KernelIdeal Cert.KernelIdeal.Gen Idealize.ShloMosaic Idealize.ShloMosaic.ValueIdx Cert.SigmaSpec

theorem dot1_eq : dot_S8192x8_S8x256_S8192x256_1_0_0_1_n_n = DotDims.plain 8192 8 256 := rfl
theorem dot2_eq : dot_S8192x256_S256x3_S8192x3_1_0_0_1_n_n = DotDims.plain 8192 256 3 := rfl

theorem pay_apply (X : Vec Ideal S1x8192x8 .f32) (Wh : Vec Ideal S8x256 .f32) (Bh : Vec Ideal S256 .f32)
    (Wc : Vec Ideal S256x3 .f32) (Bc : Vec Ideal S3 .f32) (k : Fin 3) (r : Fin 8192) :
    k0_pay1 (F := Ideal) X Wh Bh Wc Bc (ix3 (0 : Fin 1) k r)
      = Ideal.cos (piWord * Ideal.tanh ((∑ h : Fin 256,
          max ((∑ f : Fin 8, X (ix3 (0 : Fin 1) r f) * Wh (ix2 f h)) + Bh (ix1 h)) zeroWord * Wc (ix2 h k)) + Bc (ix1 k))) := by
  unfold k0_pay1
  dsimp only
  rw [shapeCast_ab_1ab_apply, transpose_ix2_apply]
  refine congrArg Ideal.cos ?_
  show _ * Ideal.tanh _ = piWord * Ideal.tanh _
  refine congrArg (fun z => piWord * Ideal.tanh z) ?_
  show _ + _ = _ + _
  refine congrArg₂ (· + ·) ?_ ?_
  · refine (Cert.Lib.PlainDot.matmul_zero_apply 8192 256 3 none _ _ (ix2 r k)).trans ?_
    refine Finset.sum_congr rfl fun h _ => ?_
    refine congrArg₂ (· * ·) ?_ ?_
    · show max _ _ = max _ _
      refine congrArg₂ max ?_ rfl
      show _ + _ = _ + _
      refine congrArg₂ (· + ·) ?_ ?_
      · refine (Cert.Lib.PlainDot.matmul_zero_apply 8192 8 256 none _ _ (ix2 r h)).trans ?_
        refine Finset.sum_congr rfl fun f _ => ?_
        refine congrArg₂ (· * ·) ?_ rfl
        exact shapeCast_1ab_ab_apply X _ r f
      · exact (broadcastTo_1b_ab_apply _ _ r h).trans (shapeCast_a_1a_apply Bh _ 0 h)
    · exact congrFun (shapeCast_self Wc _) _
  · exact (broadcastTo_1b_ab_apply _ _ r k).trans ((shapeCast_a_1a_apply _ _ 0 k).trans (congrFun (shapeCast_self Bc _) _))

end Cert.KernelIdeal.Hand
end
-- ==== Proof.ValueI.lean ====
/-
  The run of the idealized kernel program with the result window's contents named.  At grid point t the body finds
  the triplet block (the rows inside the array; past the array's end, at the last point of a batch, words nothing
  names) and the four small operands, and stores the value of PayI's entry formula.  Because entry (0, k, r) of that
  value depends on the triplet block only through its row r, the columns the write-back moves (those inside the
  array) do not depend on the unnamed rows: the result window's buffer is, on the moved part, the value computed
  from the block filled out with zeros.
-/
import proofs.«107014_j70205535421261_2_alg».proof.Proof.AroundI
import proofs.«107014_j70205535421261_2_alg».proof.Proof.BodyI
import proofs.«107014_j70205535421261_2_alg».proof.Proof.PayI

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The triplet block at point t filled out with zeros past the array's end. -/
def xfill (c : Dev nD) (t : Fin cfg0.N) : S1x8192x8.Idx → EReal :=
  win0_0.fill (grid0.coords t) (fun _ => (0 : EReal)) (iblk m c 0 t)

/-- The proof data: the arrays as the region finds them; after the body the triplet window's buffer at its zero-filled
    block, the four small operands' at their blocks, the result's at the stored value of those. -/
def vdats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => k0_pay1 (F := Ideal) (xfill m c t) (iblk m c 1 t) (iblk m c 2 t) (iblk m c 3 t) (iblk m c 4 t)
  Φ _ := Pipeline.ΦA spec0 c
  q _ := fullShare
  owed _ := 0

theorem vA_eq (c : Dev nD) (w : Fin cfg0.W) : (vdats m 0 c).A w = V m c (Pipeline.arrRef spec0 w) := by
  dsimp only [vdats]

theorem vafter0 (c : Dev nD) (t : Fin cfg0.N) : (vdats m 0 c).after 0 t = xfill m c t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = iblk m c 4 t := by dsimp only [vdats]
theorem vafter5 (c : Dev nD) (t : Fin cfg0.N) : (vdats m 0 c).after 5 t
    = k0_pay1 (F := Ideal) (xfill m c t) (iblk m c 1 t) (iblk m c 2 t) (iblk m c 3 t) (iblk m c 4 t) := by dsimp only [vdats]

theorem vbefore0 (c : Dev nD) (t : Fin cfg0.N) (d) :
    (vdats m 0 c).before 0 t d = win0_0.fill (grid0.coords t) d (iblk m c 0 t) := by
  rw [(vdats m 0 c).before_fetched 0 t (fetch0_0 t) d]
  unfold Dat.fetched Dat.blockOf iblk; rw [vA_eq]

theorem vbefore1 (c : Dev nD) (t : Fin cfg0.N) (d) : (vdats m 0 c).before 1 t d = iblk m c 1 t :=
  ((vdats m 0 c).before_in_eq_fetched 1 rfl (fun _ => rfl) (fun _ _ _ => rfl) (fun t => by rw [vafter1]; unfold Dat.blockOf iblk; rw [vA_eq]; try rfl) t d).trans
    (by unfold Dat.fetched Dat.blockOf iblk; rw [vA_eq]; try rfl)
theorem vbefore2 (c : Dev nD) (t : Fin cfg0.N) (d) : (vdats m 0 c).before 2 t d = iblk m c 2 t :=
  ((vdats m 0 c).before_in_eq_fetched 2 rfl (fun _ => rfl) (fun _ _ _ => rfl) (fun t => by rw [vafter2]; unfold Dat.blockOf iblk; rw [vA_eq]; try rfl) t d).trans
    (by unfold Dat.fetched Dat.blockOf iblk; rw [vA_eq]; try rfl)
theorem vbefore3 (c : Dev nD) (t : Fin cfg0.N) (d) : (vdats m 0 c).before 3 t d = iblk m c 3 t :=
  ((vdats m 0 c).before_in_eq_fetched 3 rfl (fun _ => rfl) (fun _ _ _ => rfl) (fun t => by rw [vafter3]; unfold Dat.blockOf iblk; rw [vA_eq]; try rfl) t d).trans
    (by unfold Dat.fetched Dat.blockOf iblk; rw [vA_eq]; try rfl)
theorem vbefore4 (c : Dev nD) (t : Fin cfg0.N) (d) : (vdats m 0 c).before 4 t d = iblk m c 4 t :=
  ((vdats m 0 c).before_in_eq_fetched 4 rfl (fun _ => rfl) (fun _ _ _ => rfl) (fun t => by rw [vafter4]; unfold Dat.blockOf iblk; rw [vA_eq]; try rfl) t d).trans
    (by unfold Dat.fetched Dat.blockOf iblk; rw [vA_eq]; try rfl)

/-- The cuts of the triplet window and of the result window at a grid point: the triplet block keeps its one batch
    and its eight features whole, and is cut along the triplets exactly as the result block is cut along its last
    axis. -/
theorem cuts_agree : ∀ t : Fin cfg0.N, win0_0.xsize (grid0.coords t) 0 = 1 ∧ win0_0.xsize (grid0.coords t) 2 = 8
      ∧ win0_0.xsize (grid0.coords t) 1 = win0_5.xsize (grid0.coords t) 2 :=
  (by decide +kernel : ∀ t : Fin grid0.N, win0_0.xsize (grid0.coords t) 0 = 1 ∧ win0_0.xsize (grid0.coords t) 2 = 8
      ∧ win0_0.xsize (grid0.coords t) 1 = win0_5.xsize (grid0.coords t) 2)

/-- Two fillings of one block agree on the part the transfer moves. -/
theorem fill_agree {α : Type} (t : Fin cfg0.N) (d d' : S1x8192x8.Idx → α) (g : (win0_0.xblock (grid0.coords t)).Idx → α)
    (j : S1x8192x8.Idx) (h : win0_0.moved (grid0.coords t) j = true) :
    win0_0.fill (grid0.coords t) d g j = win0_0.fill (grid0.coords t) d' g j := by
  unfold Window.fill; rw [dif_pos h, dif_pos h]

/-- The stored value's moved columns do not depend on how the triplet block is filled out past the array's end. -/
theorem cut_pay_indep (t : Fin cfg0.N) (d d' : S1x8192x8.Idx → EReal) (g : (win0_0.xblock (grid0.coords t)).Idx → EReal)
    (Wh : Vec Ideal S8x256 .f32) (Bh : Vec Ideal S256 .f32) (Wc : Vec Ideal S256x3 .f32) (Bc : Vec Ideal S3 .f32) :
    win0_5.cut (grid0.coords t) (k0_pay1 (F := Ideal) (win0_0.fill (grid0.coords t) d g) Wh Bh Wc Bc)
      = win0_5.cut (grid0.coords t) (k0_pay1 (F := Ideal) (win0_0.fill (grid0.coords t) d' g) Wh Bh Wc Bc) := by
  funext j
  obtain ⟨u, k, r, e⟩ : ∃ (u : Fin 1) (k : Fin 3) (r : Fin 8192), win0_5.xinj (grid0.coords t) j = ix3 u k r :=
    ⟨_, _, _, eq_ix3 (n0 := 1) (n1 := 3) (n2 := 8192) (win0_5.xinj (grid0.coords t) j)⟩
  have hu : u = 0 := Subsingleton.elim _ _
  subst hu
  have hr : r.val < win0_5.xsize (grid0.coords t) 2 := by
    have := congrArg (fun y => (y 2).val) e
    have h2 : (j 2).val < win0_5.xsize (grid0.coords t) 2 := (j 2).isLt
    simpa using this ▸ h2
  show k0_pay1 (F := Ideal) _ Wh Bh Wc Bc (win0_5.xinj (grid0.coords t) j) = k0_pay1 (F := Ideal) _ Wh Bh Wc Bc (win0_5.xinj (grid0.coords t) j)
  rw [e, pay_apply, pay_apply]
  have hf : ∀ f : Fin 8, win0_0.fill (grid0.coords t) d g (ix3 (0 : Fin 1) r f) = win0_0.fill (grid0.coords t) d' g (ix3 (0 : Fin 1) r f) :=
    fun f => fill_agree t d d' g _ ((win0_0.moved_iff _ _).mpr fun a => by
      obtain ⟨h0, h2, h1⟩ := cuts_agree t
      match a with
      | ⟨0, _⟩ => exact lt_of_lt_of_eq Nat.one_pos h0.symm
      | ⟨1, _⟩ => exact lt_of_lt_of_eq hr h1.symm
      | ⟨2, _⟩ => exact lt_of_lt_of_eq f.isLt h2.symm)
  simp only [hf]

end Cert.KernelIdeal.Hand

end
-- ==== Proof.RunI.lean ====
/-
  The body obligation and the run of the idealized kernel program with the result window named, and its frame.
-/
import proofs.«107014_j70205535421261_2_alg».proof.Proof.ValueI

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The result window is never fetched and is written back at every point: the body finds its buffer at contents
    nothing names. -/
theorem vbefore5 (c : Dev nD) (t : Fin cfg0.N) (d) : (vdats m 0 c).before 5 t d = d := by
  unfold Dat.before
  rw [if_neg (show ¬((cfg0.win 5).fetch t = true) from by
    show ¬((false && _) = true); simp)]
  by_cases ht : t.val = 0
  · rw [if_pos ht]
  · rw [if_neg ht]; exact if_pos (flush0_5 _)

/-- What the body is handed at point t, -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d)))

/-- and what it hands back. -/
def vbodyPost (c : Dev nD) (t : Fin cfg0.N) : sProp 𝕄 :=
  iprop((vdats m 0 c).Φ t.succ ∗ (vdats m 0 c).owesAt () t.succ
    ∗ (∃ d, owns (c : Thread nD τ) (st0_0 t) fullShare ((win0 0).fill (grid0.coords t) d ((win0 0).cut (grid0.coords t) ((vdats m 0 c).after 0 t))))
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ (∃ d, owns (c : Thread nD τ) (st0_5 t) fullShare ((win0 5).fill (grid0.coords t) d ((win0 5).cut (grid0.coords t) ((vdats m 0 c).after 5 t)))))

theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  rw [show (vdats m 0 c).Φ t.succ = (vdats m 0 c).Φ t.castSucc from rfl,
    show (vdats m 0 c).owesAt () t.succ = (vdats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [vbefore0 m c t d0, vbefore1 m c t d1, vbefore2 m c t d2, vbefore3 m c t d3, vbefore4 m c t d4]
  iapply (sound_kernel c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    have e : (win0 0).cut (grid0.coords t) ((vdats m 0 c).after 0 t) = iblk m c 0 t := by
      rw [vafter0]; exact win0_0.cut_fill _ _ _
    rw [e]; iexact H0
  isplitl [H1]; · rw [vafter1]; iexact H1
  isplitl [H2]; · rw [vafter2]; iexact H2
  isplitl [H3]; · rw [vafter3]; iexact H3
  isplitl [H4]; · rw [vafter4]; iexact H4
  iexists (outBuf (win0_0.fill (grid0.coords t) d0 (iblk m c 0 t)) (iblk m c 1 t) (iblk m c 2 t) (iblk m c 3 t) (iblk m c 4 t))
  have e : (win0 5).fill (grid0.coords t)
        (outBuf (win0_0.fill (grid0.coords t) d0 (iblk m c 0 t)) (iblk m c 1 t) (iblk m c 2 t) (iblk m c 3 t) (iblk m c 4 t))
        ((win0 5).cut (grid0.coords t) ((vdats m 0 c).after 5 t))
      = outBuf (win0_0.fill (grid0.coords t) d0 (iblk m c 0 t)) (iblk m c 1 t) (iblk m c 2 t) (iblk m c 3 t) (iblk m c 4 t) := by
    refine win0_5.fill_congr_cut (grid0.coords t) ?_
    rw [vafter5, outBuf_eq]
    exact cut_pay_indep t d0 _ (iblk m c 0 t) _ _ _ _
  rw [e]; iexact H5

/-- The body obligation, at every point. -/
theorem vbody_obligation (c : Dev nD) : BodyObligationLoose (vdats m 0 c) (defs₀ (F := Ideal)) Variants.none () Set.univ := fun t => by
  rw [bigSep_W0, bigSep_W0]
  exact vsound_body m c t

set_option backward.isDefEq.respectTransparency.types false in
/-- Every weakly fair execution of @main terminates without a fault; every array of the region ends at what the
    write-backs of the named contents give, every other buffer at what the trailing host lines compute from those. -/
theorem vrun_main : θ_run defs (onTc (τ := τ) (main (F := Ideal))) (s₀ m ρ)
    (Pipeline.FramePost cfgs (vdats m) 0 (Pipeline.afterTail₀ cfgs (vdats m) 0 (V0 m) [hostOps1])) :=
  Pipeline.θ_run_frame_around cfgs (vdats m) (0 : Fin 1) launch0 defs₀ Variants.none m ρ main
    (hbody := fun c => vbody_obligation m c) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hΦ := fun _ _ => rfl)

/-- The frame of the idealized kernel program. -/
theorem vframe : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (vdats m) (vA_eq m) (vrun_main m ρ)

end Cert.KernelIdeal.Hand

end
-- ==== Proof.KerUpd.lean ====
/-
  The kernel program's update array is the specification's.

  The kernel lays the three heads' weight columns side by side into one 256 × 3 matrix and the three biases into one
  vector of three, so that head k of a triplet reads column k of the matrix and entry k of the vector; it fills a
  4 × 3 × 161700 array whose entry (b, k, m) is cos (π̃ · tanh (Σ_h hidden[b,m,h] · W[h,k] + β[k])), and then reads that
  array in row-major order as a 4 × 485100 one.  Column k of the joined matrix is head k's weight column and entry k of
  the joined vector head k's bias, so the filled array is the specification's `heads`; and since
  (3 b + k) · 161700 + m = 485100 b + (161700 k + m), position s of batch b of the re-read array is head 1 at triplet s
  below 161700, head 2 at triplet s − 161700 below 323400, and head 3 at triplet s − 323400 from there on: the
  specification's `upd`.
-/
import proofs.«107014_j70205535421261_2_alg».proof.Proof.Spec
import Idealize.ShloMosaic.Lib.ValueIdx
import Idealize.ShloMosaic.Lib.Pipeline.Value

noncomputable section

open scoped BigOperators

namespace Cert.SigmaSpec.Ker

open Cert.SigmaSpec Idealize.ShloMosaic Idealize.ShloMosaic.ValueIdx

abbrev T256x3 : Shape := ⟨2, ![256, 3]⟩
abbrev T3 : Shape := ⟨1, ![3]⟩

/-! ## The joined weights and biases, read at an index -/

/-- Column `k` of the three weight columns laid side by side is head `k`'s column. -/
theorem wcat_apply {α : Type} (w1 w2 w3 : T256x1.Idx → α)
    (hW : Shape.Concatenates [T256x1, T256x1, T256x1] T256x3 1) (h : Fin 256) (k : Fin 3) :
    concatenate T256x3 1 [⟨T256x1, w1⟩, ⟨T256x1, w2⟩, ⟨T256x1, w3⟩] hW (ix2 h k)
      = (match k with
        | ⟨0, _⟩ => w1 (ix2 h 0)
        | ⟨1, _⟩ => w2 (ix2 h 0)
        | ⟨2, _⟩ => w3 (ix2 h 0)) := by
  match k with
  | ⟨0, _⟩ =>
    show _ = w1 (ix2 h 0)
    refine concatenate_apply_piece (t := T256x3) (1 : Fin 2) [⟨T256x1, w1⟩, ⟨T256x1, w2⟩, ⟨T256x1, w3⟩] hW _
      0 (by show 0 < 3; omega) T256x1 w1 rfl rfl 0 rfl (ix2 h (0 : Fin 1)) ?_ ?_
    · intro c hc
      match c with
      | ⟨0, _⟩ => rfl
      | ⟨1, _⟩ => exact absurd rfl hc
    · rfl
  | ⟨1, _⟩ =>
    show _ = w2 (ix2 h 0)
    refine concatenate_apply_piece (t := T256x3) (1 : Fin 2) [⟨T256x1, w1⟩, ⟨T256x1, w2⟩, ⟨T256x1, w3⟩] hW _
      1 (by show 1 < 3; omega) T256x1 w2 rfl rfl 1 rfl (ix2 h (0 : Fin 1)) ?_ ?_
    · intro c hc
      match c with
      | ⟨0, _⟩ => rfl
      | ⟨1, _⟩ => exact absurd rfl hc
    · rfl
  | ⟨2, _⟩ =>
    show _ = w3 (ix2 h 0)
    refine concatenate_apply_piece (t := T256x3) (1 : Fin 2) [⟨T256x1, w1⟩, ⟨T256x1, w2⟩, ⟨T256x1, w3⟩] hW _
      2 (by show 2 < 3; omega) T256x1 w3 rfl rfl 2 rfl (ix2 h (0 : Fin 1)) ?_ ?_
    · intro c hc
      match c with
      | ⟨0, _⟩ => rfl
      | ⟨1, _⟩ => exact absurd rfl hc
    · rfl

/-- Entry `k` of the three biases laid end to end is head `k`'s bias. -/
theorem bcat_apply {α : Type} (b1 b2 b3 : T1.Idx → α)
    (hB : Shape.Concatenates [T1, T1, T1] T3 0) (k : Fin 3) :
    concatenate T3 0 [⟨T1, b1⟩, ⟨T1, b2⟩, ⟨T1, b3⟩] hB (ix1 k)
      = (match k with
        | ⟨0, _⟩ => b1 (ix1 0)
        | ⟨1, _⟩ => b2 (ix1 0)
        | ⟨2, _⟩ => b3 (ix1 0)) := by
  match k with
  | ⟨0, _⟩ =>
    show _ = b1 (ix1 0)
    refine concatenate_apply_piece (t := T3) (0 : Fin 1) [⟨T1, b1⟩, ⟨T1, b2⟩, ⟨T1, b3⟩] hB _
      0 (by show 0 < 3; omega) T1 b1 rfl rfl 0 rfl (ix1 (0 : Fin 1)) ?_ ?_
    · intro c hc
      match c with
      | ⟨0, _⟩ => exact absurd rfl hc
    · rfl
  | ⟨1, _⟩ =>
    show _ = b2 (ix1 0)
    refine concatenate_apply_piece (t := T3) (0 : Fin 1) [⟨T1, b1⟩, ⟨T1, b2⟩, ⟨T1, b3⟩] hB _
      1 (by show 1 < 3; omega) T1 b2 rfl rfl 1 rfl (ix1 (0 : Fin 1)) ?_ ?_
    · intro c hc
      match c with
      | ⟨0, _⟩ => exact absurd rfl hc
    · rfl
  | ⟨2, _⟩ =>
    show _ = b3 (ix1 0)
    refine concatenate_apply_piece (t := T3) (0 : Fin 1) [⟨T1, b1⟩, ⟨T1, b2⟩, ⟨T1, b3⟩] hB _
      2 (by show 2 < 3; omega) T1 b3 rfl rfl 2 rfl (ix1 (0 : Fin 1)) ?_ ?_
    · intro c hc
      match c with
      | ⟨0, _⟩ => exact absurd rfl hc
    · rfl

/-! ## The three heads through the joined weights -/

/-- Entry (b, k, m) of the specification's `heads` is the cosine of π̃ times the hyperbolic tangent of the hidden
    layer against column `k` of the joined weights, plus entry `k` of the joined biases. -/
theorem heads_cat (x : T4x161700x8.Idx → EReal) (wh : T8x256.Idx → EReal) (bh : T256.Idx → EReal)
    (w1 : T256x1.Idx → EReal) (b1 : T1.Idx → EReal) (w2 : T256x1.Idx → EReal) (b2 : T1.Idx → EReal)
    (w3 : T256x1.Idx → EReal) (b3 : T1.Idx → EReal)
    (hW : Shape.Concatenates [T256x1, T256x1, T256x1] T256x3 1) (hB : Shape.Concatenates [T1, T1, T1] T3 0)
    (b : Fin 4) (k : Fin 3) (mm : Fin 161700) :
    heads x wh bh w1 b1 w2 b2 w3 b3 (ix3 b k mm)
      = Ideal.cos (piWord * Ideal.tanh ((∑ h : Fin 256, hid x wh bh b mm h
            * concatenate T256x3 1 [⟨T256x1, w1⟩, ⟨T256x1, w2⟩, ⟨T256x1, w3⟩] hW (ix2 h k))
          + concatenate T3 0 [⟨T1, b1⟩, ⟨T1, b2⟩, ⟨T1, b3⟩] hB (ix1 k))) := by
  match k with
  | ⟨0, hk⟩ =>
    have hw : ∀ h : Fin 256, concatenate T256x3 1 [⟨T256x1, w1⟩, ⟨T256x1, w2⟩, ⟨T256x1, w3⟩] hW (ix2 h (⟨0, hk⟩ : Fin 3)) = w1 (ix2 h 0) :=
      fun h => wcat_apply w1 w2 w3 hW h ⟨0, hk⟩
    have hb : concatenate T3 0 [⟨T1, b1⟩, ⟨T1, b2⟩, ⟨T1, b3⟩] hB (ix1 (⟨0, hk⟩ : Fin 3)) = b1 (ix1 0) :=
      bcat_apply b1 b2 b3 hB ⟨0, hk⟩
    simp only [hw, hb]
    rfl
  | ⟨1, hk⟩ =>
    have hw : ∀ h : Fin 256, concatenate T256x3 1 [⟨T256x1, w1⟩, ⟨T256x1, w2⟩, ⟨T256x1, w3⟩] hW (ix2 h (⟨1, hk⟩ : Fin 3)) = w2 (ix2 h 0) :=
      fun h => wcat_apply w1 w2 w3 hW h ⟨1, hk⟩
    have hb : concatenate T3 0 [⟨T1, b1⟩, ⟨T1, b2⟩, ⟨T1, b3⟩] hB (ix1 (⟨1, hk⟩ : Fin 3)) = b2 (ix1 0) :=
      bcat_apply b1 b2 b3 hB ⟨1, hk⟩
    simp only [hw, hb]
    rfl
  | ⟨2, hk⟩ =>
    have hw : ∀ h : Fin 256, concatenate T256x3 1 [⟨T256x1, w1⟩, ⟨T256x1, w2⟩, ⟨T256x1, w3⟩] hW (ix2 h (⟨2, hk⟩ : Fin 3)) = w3 (ix2 h 0) :=
      fun h => wcat_apply w1 w2 w3 hW h ⟨2, hk⟩
    have hb : concatenate T3 0 [⟨T1, b1⟩, ⟨T1, b2⟩, ⟨T1, b3⟩] hB (ix1 (⟨2, hk⟩ : Fin 3)) = b3 (ix1 0) :=
      bcat_apply b1 b2 b3 hB ⟨2, hk⟩
    simp only [hw, hb]
    rfl

/-! ## The specification's update array by region of positions -/

/-- Below 161700 the update array is head 1 at that triplet. -/
theorem upd_lo (x : T4x161700x8.Idx → EReal) (wh : T8x256.Idx → EReal) (bh : T256.Idx → EReal)
    (w1 : T256x1.Idx → EReal) (b1 : T1.Idx → EReal) (w2 : T256x1.Idx → EReal) (b2 : T1.Idx → EReal)
    (w3 : T256x1.Idx → EReal) (b3 : T1.Idx → EReal)
    (b : Fin 4) (s : Fin 485100) (h1 : s.val < 161700) :
    upd x wh bh w1 b1 w2 b2 w3 b3 (ix2 b s) = chan x wh bh w1 b1 b ⟨s.val, h1⟩ := by
  unfold upd
  exact dif_pos (show (ix2 b s 1).val < 161700 from h1)

/-- From 161700 up to 323400 the update array is head 2 at the triplet 161700 less. -/
theorem upd_mid (x : T4x161700x8.Idx → EReal) (wh : T8x256.Idx → EReal) (bh : T256.Idx → EReal)
    (w1 : T256x1.Idx → EReal) (b1 : T1.Idx → EReal) (w2 : T256x1.Idx → EReal) (b2 : T1.Idx → EReal)
    (w3 : T256x1.Idx → EReal) (b3 : T1.Idx → EReal)
    (b : Fin 4) (s : Fin 485100) (h1 : ¬ s.val < 161700) (h2 : s.val < 323400) :
    upd x wh bh w1 b1 w2 b2 w3 b3 (ix2 b s) = chan x wh bh w2 b2 b ⟨s.val - 161700, by omega⟩ := by
  unfold upd
  exact (dif_neg (show ¬ (ix2 b s 1).val < 161700 from h1)).trans (dif_pos (show (ix2 b s 1).val < 323400 from h2))

/-- From 323400 on the update array is head 3 at the triplet 323400 less. -/
theorem upd_hi (x : T4x161700x8.Idx → EReal) (wh : T8x256.Idx → EReal) (bh : T256.Idx → EReal)
    (w1 : T256x1.Idx → EReal) (b1 : T1.Idx → EReal) (w2 : T256x1.Idx → EReal) (b2 : T1.Idx → EReal)
    (w3 : T256x1.Idx → EReal) (b3 : T1.Idx → EReal)
    (b : Fin 4) (s : Fin 485100) (h2 : ¬ s.val < 323400) :
    upd x wh bh w1 b1 w2 b2 w3 b3 (ix2 b s) = chan x wh bh w3 b3 b ⟨s.val - 323400, by have := s.isLt; omega⟩ := by
  unfold upd
  have h1 : ¬ s.val < 161700 := fun h => h2 (by omega)
  exact (dif_neg (show ¬ (ix2 b s 1).val < 161700 from h1)).trans
    (dif_neg (show ¬ (ix2 b s 1).val < 323400 from h2))

/-! ## The heads array re-read in row-major order -/

/-- The 4 × 3 × 161700 array of heads, re-read in row-major order as a 4 × 485100 array, is the update array: position
    `s` of batch `b` has the row-major position (3 b + k) · 161700 + m of entry (b, k, m) with s = 161700 k + m. -/
theorem reshape_heads (x : T4x161700x8.Idx → EReal) (wh : T8x256.Idx → EReal) (bh : T256.Idx → EReal)
    (w1 : T256x1.Idx → EReal) (b1 : T1.Idx → EReal) (w2 : T256x1.Idx → EReal) (b2 : T1.Idx → EReal)
    (w3 : T256x1.Idx → EReal) (b3 : T1.Idx → EReal)
    (hs : T4x3x161700.ShapeCasts T4x485100) :
    shapeCast T4x485100 (heads x wh bh w1 b1 w2 b2 w3 b3) hs = upd x wh bh w1 b1 w2 b2 w3 b3 := by
  funext j
  obtain ⟨b, s, rfl⟩ : ∃ (b : Fin 4) (s : Fin 485100), j = ix2 b s := ⟨j 0, j 1, eq_ix2 j⟩
  have hb : b.val < 4 := b.isLt
  have hs' : s.val < 485100 := s.isLt
  by_cases h1 : s.val < 161700
  · refine (shapeCast_apply _ hs (ix2 b s) (ix3 b (⟨0, by omega⟩ : Fin 3) (⟨s.val, h1⟩ : Fin 161700)) ?_).trans ?_
    · rw [Shape.rowMajor_val_three, Shape.rowMajor_val_two]
      show (b.val * 3 + 0) * 161700 + s.val = b.val * 485100 + s.val
      omega
    · rw [upd_lo x wh bh w1 b1 w2 b2 w3 b3 b s h1]
      rfl
  · by_cases h2 : s.val < 323400
    · refine (shapeCast_apply _ hs (ix2 b s) (ix3 b (⟨1, by omega⟩ : Fin 3) (⟨s.val - 161700, by omega⟩ : Fin 161700)) ?_).trans ?_
      · rw [Shape.rowMajor_val_three, Shape.rowMajor_val_two]
        show (b.val * 3 + 1) * 161700 + (s.val - 161700) = b.val * 485100 + s.val
        omega
      · rw [upd_mid x wh bh w1 b1 w2 b2 w3 b3 b s h1 h2]
        rfl
    · refine (shapeCast_apply _ hs (ix2 b s) (ix3 b (⟨2, by omega⟩ : Fin 3) (⟨s.val - 323400, by omega⟩ : Fin 161700)) ?_).trans ?_
      · rw [Shape.rowMajor_val_three, Shape.rowMajor_val_two]
        show (b.val * 3 + 2) * 161700 + (s.val - 323400) = b.val * 485100 + s.val
        omega
      · rw [upd_hi x wh bh w1 b1 w2 b2 w3 b3 b s h2]
        rfl

end Cert.SigmaSpec.Ker

end
-- ==== Proof.FinalI.lean ====
/-
  The region's result array after the run, in closed form.  Grid point t = 20·b + q handles batch b and the triplets
  8192·q … 8192·q + 8191 (the last point of a batch only the 6052 triplets inside the array).  What it writes back is,
  entry by entry, head k of triplet 8192·q + r of batch b: the block's row r is that triplet's features, the small
  operands are the hidden weight and bias as launched and the three head weights and biases joined by the two leading
  host lines.  The eighty blocks cover the 4×3×161700 array, so after the run the array is the specification's heads.
-/
import proofs.«107014_j70205535421261_2_alg».proof.Proof.RunI
import proofs.«107014_j70205535421261_2_alg».proof.Proof.Spec
import proofs.«107014_j70205535421261_2_alg».proof.Proof.KerUpd
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem idx_facts : ∀ t : Fin cfg0.N,
    win0_0.index t 0 = t.val / 20 ∧ win0_0.index t 1 = t.val % 20 ∧ win0_0.index t 2 = 0
    ∧ win0_5.index t 0 = t.val / 20 ∧ win0_5.index t 1 = 0 ∧ win0_5.index t 2 = t.val % 20
    ∧ win0_1.index t 0 = 0 ∧ win0_1.index t 1 = 0 ∧ win0_2.index t 0 = 0
    ∧ win0_3.index t 0 = 0 ∧ win0_3.index t 1 = 0 ∧ win0_4.index t 0 = 0 :=
  (by decide +kernel : ∀ t : Fin grid0.N,
    win0_0.index t 0 = t.val / 20 ∧ win0_0.index t 1 = t.val % 20 ∧ win0_0.index t 2 = 0
    ∧ win0_5.index t 0 = t.val / 20 ∧ win0_5.index t 1 = 0 ∧ win0_5.index t 2 = t.val % 20
    ∧ win0_1.index t 0 = 0 ∧ win0_1.index t 1 = 0 ∧ win0_2.index t 0 = 0
    ∧ win0_3.index t 0 = 0 ∧ win0_3.index t 1 = 0 ∧ win0_4.index t 0 = 0)

theorem xs5_facts : ∀ t : Fin cfg0.N,
    win0_5.xsize (grid0.coords t) 0 = 1 ∧ win0_5.xsize (grid0.coords t) 1 = 3
    ∧ win0_5.xsize (grid0.coords t) 2 = (if t.val % 20 = 19 then 6052 else 8192) :=
  (by decide +kernel : ∀ t : Fin grid0.N,
    win0_5.xsize (grid0.coords t) 0 = 1 ∧ win0_5.xsize (grid0.coords t) 1 = 3
    ∧ win0_5.xsize (grid0.coords t) 2 = (if t.val % 20 = 19 then 6052 else 8192))

theorem iblk1_apply (c : Dev nD) (t : Fin cfg0.N) (f : Fin 8) (h : Fin 256) :
    iblk m c 1 t (ix2 f h) = m ((c : Thread nD τ).loc main_arg1) (ix2 f h) := by
  unfold iblk
  show V m c main_arg1 (((cfg0.win 1).blk t).view.emb (ix2 f h)) = _
  rw [V_main_arg1]
  refine congrArg _ (funext fun a => Fin.ext ?_)
  obtain ⟨-, -, -, -, -, -, h10, h11, -⟩ := idx_facts t
  match a with
  | ⟨0, _⟩ => show win0_1.index t 0 * 8 + 1 * f.val = f.val; rw [h10]; omega
  | ⟨1, _⟩ => show win0_1.index t 1 * 256 + 1 * h.val = h.val; rw [h11]; omega

theorem V_main_v0 (c : Dev nD) : (V m c main_v0 : S256x3.Idx → EReal)
    = concatenate S256x3 1 [⟨S256x1, m ((c : Thread nD τ).loc main_arg3)⟩, ⟨S256x1, m ((c : Thread nD τ).loc main_arg5)⟩, ⟨S256x1, m ((c : Thread nD τ).loc main_arg7)⟩] concatenates_S256x1_S256x1_S256x1_S256x3_d1 := by
  show StableHlo.after hostOps0 (fun b => m (c, b)) (Proc.devRef .tc main_v0) = _
  after_results
  rfl

theorem V_main_v1 (c : Dev nD) : (V m c main_v1 : S3.Idx → EReal)
    = concatenate S3 0 [⟨S1, m ((c : Thread nD τ).loc main_arg4)⟩, ⟨S1, m ((c : Thread nD τ).loc main_arg6)⟩, ⟨S1, m ((c : Thread nD τ).loc main_arg8)⟩] concatenates_S1_S1_S1_S3_d0 := by
  show StableHlo.after hostOps0 (fun b => m (c, b)) (Proc.devRef .tc main_v1) = _
  after_results
  rfl

theorem iblk2_apply (c : Dev nD) (t : Fin cfg0.N) (h : Fin 256) :
    iblk m c 2 t (ix1 h) = m ((c : Thread nD τ).loc main_arg2) (ix1 h) := by
  unfold iblk
  show V m c main_arg2 (((cfg0.win 2).blk t).view.emb (ix1 h)) = _
  rw [V_main_arg2]
  refine congrArg _ (funext fun a => Fin.ext ?_)
  obtain ⟨-, -, -, -, -, -, -, -, h20, -⟩ := idx_facts t
  match a with
  | ⟨0, _⟩ => show win0_2.index t 0 * 256 + 1 * h.val = h.val; rw [h20]; omega

theorem iblk3_apply (c : Dev nD) (t : Fin cfg0.N) (h : Fin 256) (k : Fin 3) :
    iblk m c 3 t (ix2 h k) = (V m c main_v0 : S256x3.Idx → EReal) (ix2 h k) := by
  unfold iblk
  show V m c main_v0 (((cfg0.win 3).blk t).view.emb (ix2 h k)) = _
  refine congrArg _ (funext fun a => Fin.ext ?_)
  obtain ⟨-, -, -, -, -, -, -, -, -, h30, h31, -⟩ := idx_facts t
  match a with
  | ⟨0, _⟩ => show win0_3.index t 0 * 256 + 1 * h.val = h.val; rw [h30]; omega
  | ⟨1, _⟩ => show win0_3.index t 1 * 3 + 1 * k.val = k.val; rw [h31]; omega

theorem iblk4_apply (c : Dev nD) (t : Fin cfg0.N) (k : Fin 3) :
    iblk m c 4 t (ix1 k) = (V m c main_v1 : S3.Idx → EReal) (ix1 k) := by
  unfold iblk
  show V m c main_v1 (((cfg0.win 4).blk t).view.emb (ix1 k)) = _
  refine congrArg _ (funext fun a => Fin.ext ?_)
  obtain ⟨-, -, -, -, -, -, -, -, -, -, -, h40⟩ := idx_facts t
  match a with
  | ⟨0, _⟩ => show win0_4.index t 0 * 3 + 1 * k.val = k.val; rw [h40]; omega

/-- Row r of the zero-filled triplet block at point t, for r inside the array, is row (t mod 20)·8192 + r of batch
    t div 20 of the error array. -/
theorem xfill_apply (c : Dev nD) (t : Fin cfg0.N) (r : Fin 8192) (f : Fin 8) (hr : r.val < win0_0.xsize (grid0.coords t) 1)
    (b : Fin 4) (mm : Fin 161700) (hb : b.val = t.val / 20) (hm : mm.val = (t.val % 20) * 8192 + r.val) :
    xfill m c t (ix3 (0 : Fin 1) r f) = m ((c : Thread nD τ).loc main_arg0) (ix3 b mm f) := by
  have hmv : win0_0.moved (grid0.coords t) (ix3 (0 : Fin 1) r f) = true := (win0_0.moved_iff _ _).mpr fun a => by
    obtain ⟨h0, h2, h1⟩ := cuts_agree t
    match a with
    | ⟨0, _⟩ => exact lt_of_lt_of_eq Nat.one_pos h0.symm
    | ⟨1, _⟩ => exact hr
    | ⟨2, _⟩ => exact lt_of_lt_of_eq f.isLt h2.symm
  unfold xfill Window.fill
  rw [dif_pos hmv]
  unfold iblk
  show V m c main_arg0 (((cfg0.win 0).blk t).view.emb _) = _
  rw [V_main_arg0]
  refine congrArg _ (funext fun a => Fin.ext ?_)
  obtain ⟨h00, h01, h02, -⟩ := idx_facts t
  match a with
  | ⟨0, _⟩ => show win0_0.index t 0 * 1 + 1 * 0 = b.val; rw [h00, hb]; omega
  | ⟨1, _⟩ => show win0_0.index t 1 * 8192 + 1 * r.val = mm.val; rw [h01, hm]; omega
  | ⟨2, _⟩ => show win0_0.index t 2 * 8 + 1 * f.val = f.val; rw [h02]; omega

/-- The specification's three heads of the launch contents of the nine float arguments. -/
def headsOf (c : Dev nD) : S4x3x161700.Idx → EReal :=
  Cert.SigmaSpec.heads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem grid_N : cfg0.N = 80 := N_0

/-- What point t writes back is block t of the specification's heads. -/
theorem flushed_eq (c : Dev nD) (t : Fin cfg0.N) :
    (vdats m 0 c).flushed 5 t = ((cfg0.win 5).blk t).view.read (Elt Ideal) (headsOf m c) := by
  funext j
  obtain ⟨u, k, r, e⟩ : ∃ (u : Fin 1) (k : Fin 3) (r : Fin 8192), win0_5.xinj (grid0.coords t) j = ix3 u k r :=
    ⟨_, _, _, eq_ix3 (n0 := 1) (n1 := 3) (n2 := 8192) (win0_5.xinj (grid0.coords t) j)⟩
  have hu : u = 0 := Subsingleton.elim _ _
  subst hu
  have ek : (j 1).val = k.val := congrArg (fun y => (y 1).val) e
  have er : (j 2).val = r.val := congrArg (fun y => (y 2).val) e
  have hr : r.val < win0_5.xsize (grid0.coords t) 2 := er ▸ (j 2).isLt
  obtain ⟨hx0, hx1, hx2⟩ := xs5_facts t
  have ht : t.val < 80 := grid_N ▸ t.isLt
  have hmm : (t.val % 20) * 8192 + r.val < 161700 := by
    rw [hx2] at hr; split at hr <;> omega
  have hj0 : (j 0).val = 0 := by
    have hlt : (j 0).val < win0_5.xsize (grid0.coords t) 0 := (j 0).isLt
    rw [hx0] at hlt; omega
  obtain ⟨-, -, -, h50, h51, h52, -⟩ := idx_facts t
  have hemb : ((cfg0.win 5).blk t).view.emb j
      = ix3 (⟨t.val / 20, by omega⟩ : Fin 4) k (⟨(t.val % 20) * 8192 + r.val, hmm⟩ : Fin 161700) :=
    funext fun a => Fin.ext (by
      match a with
      | ⟨0, _⟩ => show win0_5.index t 0 * 1 + 1 * (j 0).val = t.val / 20; rw [h50, hj0]; omega
      | ⟨1, _⟩ => show win0_5.index t 1 * 3 + 1 * (j 1).val = k.val; rw [h51, ek]; omega
      | ⟨2, _⟩ => show win0_5.index t 2 * 8192 + 1 * (j 2).val = (t.val % 20) * 8192 + r.val; rw [h52, er]; omega)
  show (vdats m 0 c).after 5 t (win0_5.xinj (grid0.coords t) j) = headsOf m c (((cfg0.win 5).blk t).view.emb j)
  rw [hemb, vafter5, e, pay_apply]
  unfold headsOf
  rw [Cert.SigmaSpec.Ker.heads_cat _ _ _ _ _ _ _ _ _ concatenates_S256x1_S256x1_S256x1_S256x3_d1 concatenates_S1_S1_S1_S3_d0]
  have hr0 : r.val < win0_0.xsize (grid0.coords t) 1 := (cuts_agree t).2.2 ▸ hr
  simp only [xfill_apply m c t r _ hr0 (⟨t.val / 20, by omega⟩ : Fin 4) (⟨(t.val % 20) * 8192 + r.val, hmm⟩ : Fin 161700) rfl rfl,
    iblk1_apply, iblk2_apply, iblk3_apply, iblk4_apply, V_main_v0, V_main_v1]
  rfl

/-- Every entry (b, k, s) of the result array lies in the block of point 20·b + s div 8192. -/
theorem cover5 (i : S4x3x161700.Idx) :
    ∃ t : Fin cfg0.N, (cfg0.win 5).flush t = true ∧ i ∈ ((cfg0.win 5).blk t).view.set := by
  have h0 : (i 0).val < 4 := (i 0).isLt
  have h1 : (i 1).val < 3 := (i 1).isLt
  have h2 : (i 2).val < 161700 := (i 2).isLt
  have hN : (i 0).val * 20 + (i 2).val / 8192 < cfg0.N := by rw [grid_N]; omega
  refine ⟨⟨(i 0).val * 20 + (i 2).val / 8192, hN⟩, flush0_5 _, ?_⟩
  show i ∈ ((View.whole main_v2).slice (win0_5.rect ⟨(i 0).val * 20 + (i 2).val / 8192, hN⟩)).set
  rw [View.set_slice_whole, Rect.mem_set_unit]
  obtain ⟨-, -, -, h50, h51, h52, -⟩ := idx_facts ⟨(i 0).val * 20 + (i 2).val / 8192, hN⟩
  obtain ⟨hx0, hx1, hx2⟩ := xs5_facts ⟨(i 0).val * 20 + (i 2).val / 8192, hN⟩
  intro a
  match a with
  | ⟨0, _⟩ =>
    show win0_5.index ⟨(i 0).val * 20 + (i 2).val / 8192, hN⟩ 0 * 1 ≤ (i 0).val
      ∧ (i 0).val < win0_5.index ⟨(i 0).val * 20 + (i 2).val / 8192, hN⟩ 0 * 1 + win0_5.xsize (grid0.coords ⟨(i 0).val * 20 + (i 2).val / 8192, hN⟩) 0
    rw [h50, hx0]; show ((i 0).val * 20 + (i 2).val / 8192) / 20 * 1 ≤ _ ∧ _ < ((i 0).val * 20 + (i 2).val / 8192) / 20 * 1 + 1; omega
  | ⟨1, _⟩ =>
    show win0_5.index ⟨(i 0).val * 20 + (i 2).val / 8192, hN⟩ 1 * 3 ≤ (i 1).val
      ∧ (i 1).val < win0_5.index ⟨(i 0).val * 20 + (i 2).val / 8192, hN⟩ 1 * 3 + win0_5.xsize (grid0.coords ⟨(i 0).val * 20 + (i 2).val / 8192, hN⟩) 1
    rw [h51, hx1]; omega
  | ⟨2, _⟩ =>
    show win0_5.index ⟨(i 0).val * 20 + (i 2).val / 8192, hN⟩ 2 * 8192 ≤ (i 2).val
      ∧ (i 2).val < win0_5.index ⟨(i 0).val * 20 + (i 2).val / 8192, hN⟩ 2 * 8192 + win0_5.xsize (grid0.coords ⟨(i 0).val * 20 + (i 2).val / 8192, hN⟩) 2
    rw [h52, hx2]
    show ((i 0).val * 20 + (i 2).val / 8192) % 20 * 8192 ≤ _ ∧ _ < ((i 0).val * 20 + (i 2).val / 8192) % 20 * 8192 + (if ((i 0).val * 20 + (i 2).val / 8192) % 20 = 19 then 6052 else 8192)
    split <;> omega

/-- The region's result array after the run is the specification's heads. -/
theorem final5 (c : Dev nD) : (vdats m 0 c).arrAt 5 cfg0.N = headsOf m c :=
  (vdats m 0 c).arrAt_eq_of_cover 5 (headsOf m c) (fun t _ => flushed_eq m c t) (cover5)

end Cert.KernelIdeal.Hand
end
-- ==== Proof.LibSymScatter.lean ====
/-
  Scatter-adding one array of updates at (row, column) and then at (column, row) is the same as scatter-adding it once
  and adding the transpose.

  U[b, s] (b < 4, s < 485100) is added into a zero array Σ[b, p, q] (p, q < 4950) at the positions (r_s, c_s) that two
  vectors of 32-bit integers name; an update whose position is out of range is dropped. On the extended reals
      Σ[b, p, q] = Σ_{s : r_s = p ∧ c_s = q} U[b, s],
  so adding U once more at the swapped positions (c_s, r_s) adds Σ_{s : c_s = p ∧ r_s = q} U[b, s] = Σ[b, q, p]:
  the result is Σ + Σᵀ (transpose of the last two axes), for ALL r, c and U — the sums are sums in a commutative monoid,
  nothing has to be finite and the positions need not be distinct.

  The steps: (1) for these dimension numbers update (b, s) lands on (b', p, q) exactly when b = b', the first index
  column at s reads p and the second reads q (`resultIdx?_eq_some_iff`); (2) two columns laid side by side read back
  as the columns (`pair_apply_0`, `pair_apply_1`), so swapping the columns swaps p and q (`lands_swap`);
  (3) the transpose read at (b, p, q) is the array at (b, q, p); (4) 0 + a = a.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Mathlib

noncomputable section

namespace SymScatter

open Idealize.ShloMosaic Idealize.ShloMosaic.ValueIdx
open scoped BigOperators

abbrev SOut : Shape := ⟨3, ![4, 4950, 4950]⟩
abbrev SPair : Shape := ⟨2, ![485100, 2]⟩
abbrev SCol : Shape := ⟨2, ![485100, 1]⟩
abbrev SUpd : Shape := ⟨2, ![4, 485100]⟩
abbrev SVec : Shape := ⟨1, ![485100]⟩
abbrev SScalar : Shape := ⟨0, ![]⟩

def dims (hwf : ScatterDims.WF SOut SPair SUpd [0] [1, 2] [1, 2] 1) : ScatterDims SOut SPair SUpd :=
  ⟨[0], [1, 2], [1, 2], 1, hwf⟩

variable (hwf : ScatterDims.WF SOut SPair SUpd [0] [1, 2] [1, 2] 1)

theorem window_0 (b : Fin 4) (s : Fin 485100) : (dims hwf).window (ix2 b s) (0 : Fin 3) = b.val := rfl
theorem window_1 (b : Fin 4) (s : Fin 485100) : (dims hwf).window (ix2 b s) (1 : Fin 3) = 0 := rfl
theorem window_2 (b : Fin 4) (s : Fin 485100) : (dims hwf).window (ix2 b s) (2 : Fin 3) = 0 := rfl

theorem start_0 (b : Fin 4) (s : Fin 485100) (idx : IVec SPair 32) : (dims hwf).start (ix2 b s) idx (0 : Fin 3) = 0 := rfl
theorem siIdx_0 (b : Fin 4) (s : Fin 485100) :
    (dims hwf).siIdx (ix2 b s) (⟨0, by decide⟩ : Fin 2) = ix2 s (0 : Fin 2) := by
  funext a; match a with | ⟨0, _⟩ => rfl | ⟨1, _⟩ => rfl
theorem siIdx_1 (b : Fin 4) (s : Fin 485100) :
    (dims hwf).siIdx (ix2 b s) (⟨1, by decide⟩ : Fin 2) = ix2 s (1 : Fin 2) := by
  funext a; match a with | ⟨0, _⟩ => rfl | ⟨1, _⟩ => rfl

theorem start_1 (b : Fin 4) (s : Fin 485100) (idx : IVec SPair 32) :
    (dims hwf).start (ix2 b s) idx (1 : Fin 3) = (idx (ix2 s (0 : Fin 2))).toInt :=
  congrArg (fun k => (idx k).toInt) (siIdx_0 hwf b s)
theorem start_2 (b : Fin 4) (s : Fin 485100) (idx : IVec SPair 32) :
    (dims hwf).start (ix2 b s) idx (2 : Fin 3) = (idx (ix2 s (1 : Fin 2))).toInt :=
  congrArg (fun k => (idx k).toInt) (siIdx_1 hwf b s)

theorem resultIdx?_eq_some_iff (b : Fin 4) (s : Fin 485100) (idx : IVec SPair 32) (b' : Fin 4) (p q : Fin 4950) :
    (dims hwf).resultIdx? (ix2 b s) idx = some (ix3 b' p q) ↔
      (b = b' ∧ (idx (ix2 s (0 : Fin 2))).toInt = (p.val : Int) ∧ (idx (ix2 s (1 : Fin 2))).toInt = (q.val : Int)) := by
  have e0 := start_0 hwf b s idx
  have e1 := start_1 hwf b s idx
  have e2 := start_2 hwf b s idx
  have w0 := window_0 hwf b s
  have w1 := window_1 hwf b s
  have w2 := window_2 hwf b s
  have hb := b.isLt
  have hb' := b'.isLt
  have hp := p.isLt
  have hq := q.isLt
  unfold ScatterDims.resultIdx?
  split
  · next h =>
    have h0 := h (0 : Fin 3); have h1 := h (1 : Fin 3); have h2 := h (2 : Fin 3)
    rw [Option.some.injEq]
    constructor
    · intro heq
      have c0 : ((dims hwf).start (ix2 b s) idx (0 : Fin 3) + ((dims hwf).window (ix2 b s) (0 : Fin 3) : Int)).toNat = b'.val :=
        congrArg Fin.val (congrFun heq (0 : Fin 3))
      have c1 : ((dims hwf).start (ix2 b s) idx (1 : Fin 3) + ((dims hwf).window (ix2 b s) (1 : Fin 3) : Int)).toNat = p.val :=
        congrArg Fin.val (congrFun heq (1 : Fin 3))
      have c2 : ((dims hwf).start (ix2 b s) idx (2 : Fin 3) + ((dims hwf).window (ix2 b s) (2 : Fin 3) : Int)).toNat = q.val :=
        congrArg Fin.val (congrFun heq (2 : Fin 3))
      refine ⟨Fin.ext ?_, ?_, ?_⟩ <;> omega
    · rintro ⟨hbb, hpp, hqq⟩
      funext a
      match a with
      | ⟨0, _⟩ =>
        apply Fin.ext
        show ((dims hwf).start (ix2 b s) idx (0 : Fin 3) + ((dims hwf).window (ix2 b s) (0 : Fin 3) : Int)).toNat = b'.val
        subst hbb; omega
      | ⟨1, _⟩ =>
        apply Fin.ext
        show ((dims hwf).start (ix2 b s) idx (1 : Fin 3) + ((dims hwf).window (ix2 b s) (1 : Fin 3) : Int)).toNat = p.val
        omega
      | ⟨2, _⟩ =>
        apply Fin.ext
        show ((dims hwf).start (ix2 b s) idx (2 : Fin 3) + ((dims hwf).window (ix2 b s) (2 : Fin 3) : Int)).toNat = q.val
        omega
  · next h =>
    constructor
    · intro hn; exact absurd hn (by simp)
    · rintro ⟨hbb, hpp, hqq⟩
      exfalso; apply h
      intro a
      match a with
      | ⟨0, _⟩ =>
        show 0 ≤ (dims hwf).start (ix2 b s) idx (0 : Fin 3) + ((dims hwf).window (ix2 b s) (0 : Fin 3) : Int) ∧
          (dims hwf).start (ix2 b s) idx (0 : Fin 3) + ((dims hwf).window (ix2 b s) (0 : Fin 3) : Int) < ((4 : Nat) : Int)
        constructor <;> omega
      | ⟨1, _⟩ =>
        show 0 ≤ (dims hwf).start (ix2 b s) idx (1 : Fin 3) + ((dims hwf).window (ix2 b s) (1 : Fin 3) : Int) ∧
          (dims hwf).start (ix2 b s) idx (1 : Fin 3) + ((dims hwf).window (ix2 b s) (1 : Fin 3) : Int) < ((4950 : Nat) : Int)
        constructor <;> omega
      | ⟨2, _⟩ =>
        show 0 ≤ (dims hwf).start (ix2 b s) idx (2 : Fin 3) + ((dims hwf).window (ix2 b s) (2 : Fin 3) : Int) ∧
          (dims hwf).start (ix2 b s) idx (2 : Fin 3) + ((dims hwf).window (ix2 b s) (2 : Fin 3) : Int) < ((4950 : Nat) : Int)
        constructor <;> omega

/-! ## Two index columns laid side by side, read at an entry -/

theorem pair_apply_0 (a b : IVec SCol 32) (hc : Shape.Concatenates [SCol, SCol] SPair 1) (s : Fin 485100) :
    concatenate SPair 1 [⟨SCol, a⟩, ⟨SCol, b⟩] hc (ix2 s (0 : Fin 2)) = a (ix2 s (0 : Fin 1)) :=
  concatenate_pair_apply_left (1 : Fin 2) a b hc (ix2 s (0 : Fin 2)) rfl (ix2 s (0 : Fin 1))
    (fun c => match c with | ⟨0, _⟩ => rfl | ⟨1, _⟩ => rfl)

theorem pair_apply_1 (a b : IVec SCol 32) (hc : Shape.Concatenates [SCol, SCol] SPair 1) (s : Fin 485100) :
    concatenate SPair 1 [⟨SCol, a⟩, ⟨SCol, b⟩] hc (ix2 s (1 : Fin 2)) = b (ix2 s (0 : Fin 1)) :=
  concatenate_pair_apply_right (1 : Fin 2) a b hc (ix2 s (1 : Fin 2)) rfl rfl (ix2 s (0 : Fin 1))
    (fun c hne => match c, hne with | ⟨0, _⟩, _ => rfl | ⟨1, _⟩, hne => absurd rfl hne)
    rfl

/-- Swapping the two index columns turns "update j lands on (b, p, q)" into "update j lands on (b, q, p)". -/
theorem lands_swap (a b : IVec SCol 32) (hc : Shape.Concatenates [SCol, SCol] SPair 1) (j : SUpd.Idx)
    (b' : Fin 4) (p q : Fin 4950) :
    (dims hwf).resultIdx? j (concatenate SPair 1 [⟨SCol, b⟩, ⟨SCol, a⟩] hc) = some (ix3 b' p q) ↔
      (dims hwf).resultIdx? j (concatenate SPair 1 [⟨SCol, a⟩, ⟨SCol, b⟩] hc) = some (ix3 b' q p) := by
  obtain ⟨c, s, rfl⟩ : ∃ (c : Fin 4) (s : Fin 485100), j = ix2 c s := ⟨j 0, j 1, eq_ix2 j⟩
  rw [resultIdx?_eq_some_iff, resultIdx?_eq_some_iff, pair_apply_0, pair_apply_1, pair_apply_0, pair_apply_1]
  tauto

/-- The accumulating scatter at the ideal values, read at an index. -/
theorem scatterAdd_apply (x : FVec Ideal SOut .f32) (idx : IVec SPair 32) (U : FVec Ideal SUpd .f32) (i : SOut.Idx) :
    Host.scatterAdd (dims hwf) x idx U i =
      x i + ∑ j ∈ Finset.univ.filter (fun j => (dims hwf).resultIdx? j idx = some i), U j := rfl

theorem twice_eq_symmetrised_core (a b : IVec SCol 32) (hc : Shape.Concatenates [SCol, SCol] SPair 1)
    (ht : SOut.Transposes [0, 2, 1] SOut) (U : FVec Ideal SUpd .f32) (z : FVec Ideal SOut .f32) (hzero : ∀ i, z i = 0) :
    Host.scatterAdd (dims hwf)
        (Host.scatterAdd (dims hwf) z (concatenate SPair 1 [⟨SCol, a⟩, ⟨SCol, b⟩] hc) U)
        (concatenate SPair 1 [⟨SCol, b⟩, ⟨SCol, a⟩] hc) U
      = addf (Host.scatterAdd (dims hwf) z (concatenate SPair 1 [⟨SCol, a⟩, ⟨SCol, b⟩] hc) U)
          (transpose SOut [0, 2, 1] (Host.scatterAdd (dims hwf) z (concatenate SPair 1 [⟨SCol, a⟩, ⟨SCol, b⟩] hc) U) ht) := by
  funext i
  obtain ⟨b', p, q, rfl⟩ : ∃ (b' : Fin 4) (p q : Fin 4950), i = ix3 b' p q := ⟨i 0, i 1, i 2, eq_ix3 i⟩
  rw [addf_apply, transpose_ix3_021_apply, scatterAdd_apply, scatterAdd_apply hwf z _ U (ix3 b' q p), hzero (ix3 b' q p), zero_add]
  refine congrArg _ (Finset.sum_congr (Finset.filter_congr fun j _ => lands_swap hwf a b hc j b' p q) (fun _ _ => rfl))

/-! ## The two programs' tails, as functions of the index vectors and the updates -/

/-- A negative index counted from the end: `v + 4950` where `v < 0`, else `v`. -/
def normIdx (hb : SScalar.BroadcastsInDim SVec (![] : Fin 0 → Fin SVec.rank)) (v : IVec SVec 32) : IVec SVec 32 :=
  select (cmpi .slt v (broadcastInDim SVec ![] hb (constantI SScalar 32 0#32)))
    (addi v (broadcastInDim SVec ![] hb (constantI SScalar 32 4950#32))) v

/-- Two index vectors as the two columns of one array of index pairs. -/
def pairIdx (hb1 : SVec.BroadcastsInDim SCol (![0] : Fin 1 → Fin SCol.rank))
    (hc : Shape.Concatenates [SCol, SCol] SPair 1) (a b : IVec SVec 32) : IVec SPair 32 :=
  concatenate SPair 1 [⟨SCol, broadcastInDim SCol ![0] hb1 a⟩, ⟨SCol, broadcastInDim SCol ![0] hb1 b⟩] hc

/-- The array of zeros the sums start from. -/
def zeroArr {F : FTy → Type} [FloatOps F] (hz : SScalar.BroadcastsInDim SOut (![] : Fin 0 → Fin SOut.rank)) :
    FVec F SOut .f32 :=
  broadcastInDim SOut ![] hz (constant SScalar .f32 0x00000000#32)

/-- The updates added at (row, column) and then, into the result, at (column, row). -/
def twiceScattered {F : FTy → Type} [FloatOps F]
    (hb : SScalar.BroadcastsInDim SVec (![] : Fin 0 → Fin SVec.rank))
    (hb1 : SVec.BroadcastsInDim SCol (![0] : Fin 1 → Fin SCol.rank))
    (hc : Shape.Concatenates [SCol, SCol] SPair 1)
    (hz : SScalar.BroadcastsInDim SOut (![] : Fin 0 → Fin SOut.rank))
    (d : ScatterDims SOut SPair SUpd) (rows cols : IVec SVec 32) (U : FVec F SUpd .f32) : FVec F SOut .f32 :=
  Host.scatterAdd d
    (Host.scatterAdd d (zeroArr hz) (pairIdx hb1 hc (normIdx hb rows) (normIdx hb cols)) U)
    (pairIdx hb1 hc (normIdx hb cols) (normIdx hb rows)) U

/-- The updates added at (row, column), plus the transpose of that sum over the last two axes. -/
def symmetrised {F : FTy → Type} [FloatOps F]
    (hb : SScalar.BroadcastsInDim SVec (![] : Fin 0 → Fin SVec.rank))
    (hb1 : SVec.BroadcastsInDim SCol (![0] : Fin 1 → Fin SCol.rank))
    (hc : Shape.Concatenates [SCol, SCol] SPair 1)
    (hz : SScalar.BroadcastsInDim SOut (![] : Fin 0 → Fin SOut.rank))
    (ht : SOut.Transposes [0, 2, 1] SOut)
    (d : ScatterDims SOut SPair SUpd) (rows cols : IVec SVec 32) (U : FVec F SUpd .f32) : FVec F SOut .f32 :=
  addf (Host.scatterAdd d (zeroArr hz) (pairIdx hb1 hc (normIdx hb rows) (normIdx hb cols)) U)
    (transpose SOut [0, 2, 1]
      (Host.scatterAdd d (zeroArr hz) (pairIdx hb1 hc (normIdx hb rows) (normIdx hb cols)) U) ht)

/-- The starting array is zero everywhere at the ideal values. -/
theorem zeroArr_apply (hz : SScalar.BroadcastsInDim SOut (![] : Fin 0 → Fin SOut.rank)) (i : SOut.Idx) :
    zeroArr (F := Ideal) hz i = 0 := by
  unfold zeroArr
  rw [broadcastInDim_scalar_apply, constant_apply, Ideal.ofBits_zero_f32]

/-- Adding the updates at (row, column) and then at (column, row) gives the sum at (row, column) plus its transpose:
    at (b, p, q) both are Σ_{s : r_s = p ∧ c_s = q} U[b,s] + Σ_{s : c_s = p ∧ r_s = q} U[b,s], for all index vectors
    and all updates. -/
theorem twiceScattered_eq_symmetrised
    (hb : SScalar.BroadcastsInDim SVec (![] : Fin 0 → Fin SVec.rank))
    (hb1 : SVec.BroadcastsInDim SCol (![0] : Fin 1 → Fin SCol.rank))
    (hc : Shape.Concatenates [SCol, SCol] SPair 1)
    (hz : SScalar.BroadcastsInDim SOut (![] : Fin 0 → Fin SOut.rank))
    (ht : SOut.Transposes [0, 2, 1] SOut)
    (rows cols : IVec SVec 32) (U : FVec Ideal SUpd .f32) :
    twiceScattered (F := Ideal) hb hb1 hc hz (dims hwf) rows cols U
      = symmetrised (F := Ideal) hb hb1 hc hz ht (dims hwf) rows cols U :=
  twice_eq_symmetrised_core hwf _ _ hc ht U (zeroArr hz) (zeroArr_apply hz)

end SymScatter
-- ==== Proof.TailI.lean ====
/-
  What the forty-one host lines after the region compute.  From the buffers' contents when the region is left they
  reshape the region's result [4, 3, 161700] to the update array U[4, 485100], join the three index arguments into
  the row vector (arguments 9, 10, 11) and the column vector (arguments 10, 11, 9), count negative indices from the
  end, and add U into a zero array at (row, column) and then at (column, row).  The last buffer written is therefore
  the twice-scattered array of LibSymScatter over those two joined vectors and the reshaped result.
-/
import proofs.«107014_j70205535421261_2_alg».proof.Proof.AroundI
import proofs.«107014_j70205535421261_2_alg».proof.Proof.LibSymScatter
import Idealize.ShloMosaic.Lib.StableHlo.Run
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.StableHlo

variable {F : FTy → Type} [FloatOps F]

variable (m : (ℓ : Loc nD τ sig) → Buf (Elt F) ℓ)

set_option maxHeartbeats 4000000 in
/-- The trailing lines run from ANY contents W of the buffers: the last buffer they write is the updates (the reshape
    of what W holds at the region's result) added at (row, column) and then at (column, row), rows and columns the
    joins of what W holds at the three index arguments. -/
theorem tail_of_valuation (W : Valuation τ sig (Elt F)) :
    StableHlo.after hostOps1 W (Proc.devRef .tc main_v34)
      = Host.scatterAdd scatter_S4x4950x4950_S485100x2_S4x485100_0_12_12_1
        (Host.scatterAdd scatter_S4x4950x4950_S485100x2_S4x485100_0_12_12_1 (broadcastInDim S4x4950x4950 ![] bcast_S_S4x4950x4950 (constant S_ .f32 0x00000000#32))
          (concatenate S485100x2 1 [⟨S485100x1, broadcastInDim S485100x1 ![0] bcast_S485100_S485100x1_0 (select (cmpi .slt (concatenate S485100 0 [⟨S161700, W (Proc.devRef .tc main_arg9)⟩, ⟨S161700, W (Proc.devRef .tc main_arg10)⟩, ⟨S161700, W (Proc.devRef .tc main_arg11)⟩] concatenates_S161700_S161700_S161700_S485100_d0) (broadcastInDim S485100 ![] bcast_S_S485100 (constantI S_ 32 0#32))) (addi (concatenate S485100 0 [⟨S161700, W (Proc.devRef .tc main_arg9)⟩, ⟨S161700, W (Proc.devRef .tc main_arg10)⟩, ⟨S161700, W (Proc.devRef .tc main_arg11)⟩] concatenates_S161700_S161700_S161700_S485100_d0) (broadcastInDim S485100 ![] bcast_S_S485100 (constantI S_ 32 4950#32))) (concatenate S485100 0 [⟨S161700, W (Proc.devRef .tc main_arg9)⟩, ⟨S161700, W (Proc.devRef .tc main_arg10)⟩, ⟨S161700, W (Proc.devRef .tc main_arg11)⟩] concatenates_S161700_S161700_S161700_S485100_d0))⟩, ⟨S485100x1, broadcastInDim S485100x1 ![0] bcast_S485100_S485100x1_0 (select (cmpi .slt (concatenate S485100 0 [⟨S161700, W (Proc.devRef .tc main_arg10)⟩, ⟨S161700, W (Proc.devRef .tc main_arg11)⟩, ⟨S161700, W (Proc.devRef .tc main_arg9)⟩] concatenates_S161700_S161700_S161700_S485100_d0) (broadcastInDim S485100 ![] bcast_S_S485100 (constantI S_ 32 0#32))) (addi (concatenate S485100 0 [⟨S161700, W (Proc.devRef .tc main_arg10)⟩, ⟨S161700, W (Proc.devRef .tc main_arg11)⟩, ⟨S161700, W (Proc.devRef .tc main_arg9)⟩] concatenates_S161700_S161700_S161700_S485100_d0) (broadcastInDim S485100 ![] bcast_S_S485100 (constantI S_ 32 4950#32))) (concatenate S485100 0 [⟨S161700, W (Proc.devRef .tc main_arg10)⟩, ⟨S161700, W (Proc.devRef .tc main_arg11)⟩, ⟨S161700, W (Proc.devRef .tc main_arg9)⟩] concatenates_S161700_S161700_S161700_S485100_d0))⟩] concatenates_S485100x1_S485100x1_S485100x2_d1) (shapeCast S4x485100 (W (Proc.devRef .tc main_v2)) shapeCasts_S4x3x161700_S4x485100))
        (concatenate S485100x2 1 [⟨S485100x1, broadcastInDim S485100x1 ![0] bcast_S485100_S485100x1_0 (select (cmpi .slt (concatenate S485100 0 [⟨S161700, W (Proc.devRef .tc main_arg10)⟩, ⟨S161700, W (Proc.devRef .tc main_arg11)⟩, ⟨S161700, W (Proc.devRef .tc main_arg9)⟩] concatenates_S161700_S161700_S161700_S485100_d0) (broadcastInDim S485100 ![] bcast_S_S485100 (constantI S_ 32 0#32))) (addi (concatenate S485100 0 [⟨S161700, W (Proc.devRef .tc main_arg10)⟩, ⟨S161700, W (Proc.devRef .tc main_arg11)⟩, ⟨S161700, W (Proc.devRef .tc main_arg9)⟩] concatenates_S161700_S161700_S161700_S485100_d0) (broadcastInDim S485100 ![] bcast_S_S485100 (constantI S_ 32 4950#32))) (concatenate S485100 0 [⟨S161700, W (Proc.devRef .tc main_arg10)⟩, ⟨S161700, W (Proc.devRef .tc main_arg11)⟩, ⟨S161700, W (Proc.devRef .tc main_arg9)⟩] concatenates_S161700_S161700_S161700_S485100_d0))⟩, ⟨S485100x1, broadcastInDim S485100x1 ![0] bcast_S485100_S485100x1_0 (select (cmpi .slt (concatenate S485100 0 [⟨S161700, W (Proc.devRef .tc main_arg9)⟩, ⟨S161700, W (Proc.devRef .tc main_arg10)⟩, ⟨S161700, W (Proc.devRef .tc main_arg11)⟩] concatenates_S161700_S161700_S161700_S485100_d0) (broadcastInDim S485100 ![] bcast_S_S485100 (constantI S_ 32 0#32))) (addi (concatenate S485100 0 [⟨S161700, W (Proc.devRef .tc main_arg9)⟩, ⟨S161700, W (Proc.devRef .tc main_arg10)⟩, ⟨S161700, W (Proc.devRef .tc main_arg11)⟩] concatenates_S161700_S161700_S161700_S485100_d0) (broadcastInDim S485100 ![] bcast_S_S485100 (constantI S_ 32 4950#32))) (concatenate S485100 0 [⟨S161700, W (Proc.devRef .tc main_arg9)⟩, ⟨S161700, W (Proc.devRef .tc main_arg10)⟩, ⟨S161700, W (Proc.devRef .tc main_arg11)⟩] concatenates_S161700_S161700_S161700_S485100_d0))⟩] concatenates_S485100x1_S485100x1_S485100x2_d1) (shapeCast S4x485100 (W (Proc.devRef .tc main_v2)) shapeCasts_S4x3x161700_S4x485100) := by
  after_results_simp <;> rfl

/-- The same with the region's exit contents put in: the region's arrays at what the proof data compute, every other
    buffer as the region found it; the index arguments are written by no host line, so they are as launched. -/
theorem tail_value (dats : (p : Fin 1) → (c : Dev nD) → Dat τ (Elt F) Unit ℕ (UR sig nD τ) ℕ (cfgs p) c) (c : Dev nD) :
    Pipeline.afterTail₀ cfgs dats 0 (V0 m) [hostOps1] c main_v34
      = SymScatter.twiceScattered bcast_S_S485100 bcast_S485100_S485100x1_0 concatenates_S485100x1_S485100x1_S485100x2_d1
          bcast_S_S4x4950x4950 (SymScatter.dims scatter_S4x4950x4950_S485100x2_S4x485100_0_12_12_1_wf)
          (concatenate S485100 0 [⟨S161700, m ((c : Thread nD τ).loc main_arg9)⟩, ⟨S161700, m ((c : Thread nD τ).loc main_arg10)⟩, ⟨S161700, m ((c : Thread nD τ).loc main_arg11)⟩] concatenates_S161700_S161700_S161700_S485100_d0)
          (concatenate S485100 0 [⟨S161700, m ((c : Thread nD τ).loc main_arg10)⟩, ⟨S161700, m ((c : Thread nD τ).loc main_arg11)⟩, ⟨S161700, m ((c : Thread nD τ).loc main_arg9)⟩] concatenates_S161700_S161700_S161700_S485100_d0)
          (shapeCast S4x485100 ((dats 0 c).arrAt 5 cfg0.N) shapeCasts_S4x3x161700_S4x485100) := by
  have h2 : Pipeline.withArrays spec0 c (V0 m c) (fun w => (dats 0 c).arrAt w cfg0.N) (Proc.devRef .tc main_v2)
      = (dats 0 c).arrAt 5 cfg0.N :=
    Pipeline.withArrays_arr spec0 launch0.win.arr_inj c (V0 m c) (fun w => (dats 0 c).arrAt w cfg0.N) (5 : Fin 6)
  have h9 : Pipeline.withArrays spec0 c (V0 m c) (fun w => (dats 0 c).arrAt w cfg0.N) (Proc.devRef .tc main_arg9)
      = m ((c : Thread nD τ).loc main_arg9) :=
    (Pipeline.withArrays_of_ne spec0 c (V0 m c) (fun w => (dats 0 c).arrAt w cfg0.N) main_arg9
      (by exact (by decide : ∀ w, Pipeline.arrRef spec0 w ≠ main_arg9))).trans (V_main_arg9 m c)
  have h10 : Pipeline.withArrays spec0 c (V0 m c) (fun w => (dats 0 c).arrAt w cfg0.N) (Proc.devRef .tc main_arg10)
      = m ((c : Thread nD τ).loc main_arg10) :=
    (Pipeline.withArrays_of_ne spec0 c (V0 m c) (fun w => (dats 0 c).arrAt w cfg0.N) main_arg10
      (by exact (by decide : ∀ w, Pipeline.arrRef spec0 w ≠ main_arg10))).trans (V_main_arg10 m c)
  have h11 : Pipeline.withArrays spec0 c (V0 m c) (fun w => (dats 0 c).arrAt w cfg0.N) (Proc.devRef .tc main_arg11)
      = m ((c : Thread nD τ).loc main_arg11) :=
    (Pipeline.withArrays_of_ne spec0 c (V0 m c) (fun w => (dats 0 c).arrAt w cfg0.N) main_arg11
      (by exact (by decide : ∀ w, Pipeline.arrRef spec0 w ≠ main_arg11))).trans (V_main_arg11 m c)
  unfold Pipeline.afterTail₀
  show StableHlo.after hostOps1 (Pipeline.withArrays spec0 c (V0 m c) (fun w => (dats 0 c).arrAt w cfg0.N))
      (Proc.devRef .tc main_v34) = _
  rw [tail_of_valuation, h2, h9, h10, h11]
  rfl

end Cert.KernelIdeal.Hand

end
-- ==== Proof.RefUpd.lean ====
/-
  The reference program's update array is the specification's.

  The reference computes, for every batch b and triplet m, the shared hidden layer
      max (Σ_f x[b,m,f] · W_h[f,h] + b_h[h]) 0,
  then for each of its three heads (W, β) the value cos (π̃ · tanh (Σ_h hidden[b,m,h] · W[h,0] + β[0])), and lays the
  three heads' values end to end along the second axis.  Read index by index on the extended reals this is
  `Cert.SigmaSpec.upd`: position s of batch b is head 1 at triplet s below 161700, head 2 at triplet s − 161700 below
  323400, and head 3 at triplet s − 323400 from there on.
-/
import proofs.«107014_j70205535421261_2_alg».proof.Proof.Gen.ReferenceIdeal.Read
import proofs.«107014_j70205535421261_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefUpd

open Cert.ReferenceIdeal Cert.ReferenceIdeal.Read Cert.SigmaSpec Idealize.ShloMosaic Idealize.ShloMosaic.ValueIdx

/-! ## Three arrays laid end to end along the second axis, read at an index -/

/-- Below the first extent the joined array is the first piece. -/
theorem concat3_first {α : Type} (y1 y2 y3 : S4x161700.Idx → α)
    (h : Shape.Concatenates [S4x161700, S4x161700, S4x161700] S4x485100 1)
    (b : Fin 4) (s : Fin 485100) (h1 : s.val < 161700) :
    concatenate S4x485100 1 [⟨S4x161700, y1⟩, ⟨S4x161700, y2⟩, ⟨S4x161700, y3⟩] h (ix2 b s) = y1 (ix2 b ⟨s.val, h1⟩) := by
  refine concatenate_apply_piece (t := S4x485100) (1 : Fin 2) [⟨S4x161700, y1⟩, ⟨S4x161700, y2⟩, ⟨S4x161700, y3⟩] h (ix2 b s)
    0 (by show 0 < 3; omega) S4x161700 y1 rfl rfl 0 rfl (ix2 b ⟨s.val, h1⟩) ?_ ?_
  · intro c hc
    match c with
    | ⟨0, _⟩ => rfl
    | ⟨1, _⟩ => exact absurd rfl hc
  · exact Nat.zero_add _

/-- From the first extent up to twice it the joined array is the second piece, the first extent less. -/
theorem concat3_second {α : Type} (y1 y2 y3 : S4x161700.Idx → α)
    (h : Shape.Concatenates [S4x161700, S4x161700, S4x161700] S4x485100 1)
    (b : Fin 4) (s : Fin 485100) (h1 : ¬ s.val < 161700) (h2 : s.val < 323400) :
    concatenate S4x485100 1 [⟨S4x161700, y1⟩, ⟨S4x161700, y2⟩, ⟨S4x161700, y3⟩] h (ix2 b s)
      = y2 (ix2 b ⟨s.val - 161700, by omega⟩) := by
  refine concatenate_apply_piece (t := S4x485100) (1 : Fin 2) [⟨S4x161700, y1⟩, ⟨S4x161700, y2⟩, ⟨S4x161700, y3⟩] h (ix2 b s)
    1 (by show 1 < 3; omega) S4x161700 y2 rfl rfl 161700 rfl (ix2 b ⟨s.val - 161700, by omega⟩) ?_ ?_
  · intro c hc
    match c with
    | ⟨0, _⟩ => rfl
    | ⟨1, _⟩ => exact absurd rfl hc
  · show 161700 + (s.val - 161700) = s.val
    omega

/-- From twice the first extent on the joined array is the third piece, twice the first extent less. -/
theorem concat3_third {α : Type} (y1 y2 y3 : S4x161700.Idx → α)
    (h : Shape.Concatenates [S4x161700, S4x161700, S4x161700] S4x485100 1)
    (b : Fin 4) (s : Fin 485100) (h2 : ¬ s.val < 323400) :
    concatenate S4x485100 1 [⟨S4x161700, y1⟩, ⟨S4x161700, y2⟩, ⟨S4x161700, y3⟩] h (ix2 b s)
      = y3 (ix2 b ⟨s.val - 323400, by have := s.isLt; omega⟩) := by
  refine concatenate_apply_piece (t := S4x485100) (1 : Fin 2) [⟨S4x161700, y1⟩, ⟨S4x161700, y2⟩, ⟨S4x161700, y3⟩] h (ix2 b s)
    2 (by show 2 < 3; omega) S4x161700 y3 rfl rfl 323400 rfl (ix2 b ⟨s.val - 323400, by have := s.isLt; omega⟩) ?_ ?_
  · intro c hc
    match c with
    | ⟨0, _⟩ => rfl
    | ⟨1, _⟩ => exact absurd rfl hc
  · show 323400 + (s.val - 323400) = s.val
    omega

/-! ## The shared hidden layer -/

/-- The reference's rectified hidden layer at batch `b`, triplet `m`, unit `h` is the specification's `hid`: the
    contraction over the eight features, plus the bias, against the zero word under `max`. -/
theorem val_main_v4_eq_hid (x0 : (⟨S4x161700x8, .f32⟩ : BufTy).Contents (Elt Ideal)) (x1 : (⟨S8x256, .f32⟩ : BufTy).Contents (Elt Ideal)) (x2 : (⟨S256, .f32⟩ : BufTy).Contents (Elt Ideal))
    (b : Fin 4) (m : Fin 161700) (h : Fin 256) :
    val_main_v4 (F := Ideal) x0 x1 x2 (ix3 b m h) = hid x0 x1 x2 b m h := by
  have el : ∀ k : Fin 8, lidx_main_v0 (ix3 b m h) k = ix3 b m k := fun k => funext fun a => by
    match a with
    | ⟨0, _⟩ => rfl
    | ⟨1, _⟩ => rfl
    | ⟨2, _⟩ => rfl
  have er : ∀ k : Fin 8, ridx_main_v0 (ix3 b m h) k = ix2 k h := fun k => funext fun a => by
    match a with
    | ⟨0, _⟩ => rfl
    | ⟨1, _⟩ => rfl
  have eb : idx_main_v1 (idx_main_v2 (ix3 b m h)) = ix1 h := funext fun a => by
    match a with
    | ⟨0, _⟩ => rfl
  rw [val_main_v4_apply, val_main_v3_apply, val_main_v0_apply, val_main_v2_apply, val_main_v1_apply, eb,
    val_main_call0_v0_apply, val_main_call0_cst_apply]
  simp only [el, er, Ideal.addf_def, Ideal.maximumf_def, Ideal.ofBits_def]
  rfl

/-! ## The three heads -/

/-- Head 1 of the reference at batch `b`, triplet `m`: the cosine of π̃ times the hyperbolic tangent of the head's
    affine image of the hidden layer, which is the specification's `chan`. -/
theorem val_main_v25_eq_chan (x0 : (⟨S4x161700x8, .f32⟩ : BufTy).Contents (Elt Ideal)) (x1 : (⟨S8x256, .f32⟩ : BufTy).Contents (Elt Ideal)) (x2 : (⟨S256, .f32⟩ : BufTy).Contents (Elt Ideal)) (x3 : (⟨S256x1, .f32⟩ : BufTy).Contents (Elt Ideal)) (x4 : (⟨S1, .f32⟩ : BufTy).Contents (Elt Ideal))
    (b : Fin 4) (m : Fin 161700) :
    val_main_v25 (F := Ideal) x0 x1 x2 x3 x4 (ix2 b m) = chan x0 x1 x2 x3 x4 b m := by
  have e10 : idx_main_v10 (ix2 b m) = ix3 b m (0 : Fin 1) := funext fun a => by
    match a with
    | ⟨0, _⟩ => exact Fin.ext (by show (b.val * 161700 + m.val) / 161700 = b.val; have := m.isLt; omega)
    | ⟨1, _⟩ => exact Fin.ext (by show (b.val * 161700 + m.val) / 1 % 161700 = m.val; have := m.isLt; omega)
    | ⟨2, _⟩ => rfl
  have el : ∀ k : Fin 256, lidx_main_v5 (ix3 b m (0 : Fin 1)) k = ix3 b m k := fun k => funext fun a => by
    match a with
    | ⟨0, _⟩ => rfl
    | ⟨1, _⟩ => rfl
    | ⟨2, _⟩ => rfl
  have er : ∀ k : Fin 256, ridx_main_v5 (ix3 b m (0 : Fin 1)) k = ix2 k (0 : Fin 1) := fun k => funext fun a => by
    match a with
    | ⟨0, _⟩ => rfl
    | ⟨1, _⟩ => rfl
  have eb : idx_main_v6 (idx_main_v7 (ix3 b m (0 : Fin 1))) = ix1 (0 : Fin 1) := funext fun a => by
    match a with
    | ⟨0, _⟩ => rfl
  rw [val_main_v25_apply, val_main_v24_apply, val_main_v23_apply, val_main_cst_apply, val_main_v10_apply, e10,
    val_main_v9_apply, val_main_v8_apply, val_main_v5_apply, val_main_v7_apply, val_main_v6_apply, eb]
  simp only [el, er, val_main_v4_eq_hid, Ideal.addf_def, Ideal.mulf_def, Ideal.hostUnary_tanh_def,
    Ideal.hostUnary_cos_def, Ideal.ofBits_def]
  rfl

/-- Head 2 of the reference at batch `b`, triplet `m`: the cosine of π̃ times the hyperbolic tangent of the head's
    affine image of the hidden layer, which is the specification's `chan`. -/
theorem val_main_v28_eq_chan (x0 : (⟨S4x161700x8, .f32⟩ : BufTy).Contents (Elt Ideal)) (x1 : (⟨S8x256, .f32⟩ : BufTy).Contents (Elt Ideal)) (x2 : (⟨S256, .f32⟩ : BufTy).Contents (Elt Ideal)) (x5 : (⟨S256x1, .f32⟩ : BufTy).Contents (Elt Ideal)) (x6 : (⟨S1, .f32⟩ : BufTy).Contents (Elt Ideal))
    (b : Fin 4) (m : Fin 161700) :
    val_main_v28 (F := Ideal) x0 x1 x2 x5 x6 (ix2 b m) = chan x0 x1 x2 x5 x6 b m := by
  have e10 : idx_main_v16 (ix2 b m) = ix3 b m (0 : Fin 1) := funext fun a => by
    match a with
    | ⟨0, _⟩ => exact Fin.ext (by show (b.val * 161700 + m.val) / 161700 = b.val; have := m.isLt; omega)
    | ⟨1, _⟩ => exact Fin.ext (by show (b.val * 161700 + m.val) / 1 % 161700 = m.val; have := m.isLt; omega)
    | ⟨2, _⟩ => rfl
  have el : ∀ k : Fin 256, lidx_main_v11 (ix3 b m (0 : Fin 1)) k = ix3 b m k := fun k => funext fun a => by
    match a with
    | ⟨0, _⟩ => rfl
    | ⟨1, _⟩ => rfl
    | ⟨2, _⟩ => rfl
  have er : ∀ k : Fin 256, ridx_main_v11 (ix3 b m (0 : Fin 1)) k = ix2 k (0 : Fin 1) := fun k => funext fun a => by
    match a with
    | ⟨0, _⟩ => rfl
    | ⟨1, _⟩ => rfl
  have eb : idx_main_v12 (idx_main_v13 (ix3 b m (0 : Fin 1))) = ix1 (0 : Fin 1) := funext fun a => by
    match a with
    | ⟨0, _⟩ => rfl
  rw [val_main_v28_apply, val_main_v27_apply, val_main_v26_apply, val_main_cst_0_apply, val_main_v16_apply, e10,
    val_main_v15_apply, val_main_v14_apply, val_main_v11_apply, val_main_v13_apply, val_main_v12_apply, eb]
  simp only [el, er, val_main_v4_eq_hid, Ideal.addf_def, Ideal.mulf_def, Ideal.hostUnary_tanh_def,
    Ideal.hostUnary_cos_def, Ideal.ofBits_def]
  rfl

/-- Head 3 of the reference at batch `b`, triplet `m`: the cosine of π̃ times the hyperbolic tangent of the head's
    affine image of the hidden layer, which is the specification's `chan`. -/
theorem val_main_v31_eq_chan (x0 : (⟨S4x161700x8, .f32⟩ : BufTy).Contents (Elt Ideal)) (x1 : (⟨S8x256, .f32⟩ : BufTy).Contents (Elt Ideal)) (x2 : (⟨S256, .f32⟩ : BufTy).Contents (Elt Ideal)) (x7 : (⟨S256x1, .f32⟩ : BufTy).Contents (Elt Ideal)) (x8 : (⟨S1, .f32⟩ : BufTy).Contents (Elt Ideal))
    (b : Fin 4) (m : Fin 161700) :
    val_main_v31 (F := Ideal) x0 x1 x2 x7 x8 (ix2 b m) = chan x0 x1 x2 x7 x8 b m := by
  have e10 : idx_main_v22 (ix2 b m) = ix3 b m (0 : Fin 1) := funext fun a => by
    match a with
    | ⟨0, _⟩ => exact Fin.ext (by show (b.val * 161700 + m.val) / 161700 = b.val; have := m.isLt; omega)
    | ⟨1, _⟩ => exact Fin.ext (by show (b.val * 161700 + m.val) / 1 % 161700 = m.val; have := m.isLt; omega)
    | ⟨2, _⟩ => rfl
  have el : ∀ k : Fin 256, lidx_main_v17 (ix3 b m (0 : Fin 1)) k = ix3 b m k := fun k => funext fun a => by
    match a with
    | ⟨0, _⟩ => rfl
    | ⟨1, _⟩ => rfl
    | ⟨2, _⟩ => rfl
  have er : ∀ k : Fin 256, ridx_main_v17 (ix3 b m (0 : Fin 1)) k = ix2 k (0 : Fin 1) := fun k => funext fun a => by
    match a with
    | ⟨0, _⟩ => rfl
    | ⟨1, _⟩ => rfl
  have eb : idx_main_v18 (idx_main_v19 (ix3 b m (0 : Fin 1))) = ix1 (0 : Fin 1) := funext fun a => by
    match a with
    | ⟨0, _⟩ => rfl
  rw [val_main_v31_apply, val_main_v30_apply, val_main_v29_apply, val_main_cst_1_apply, val_main_v22_apply, e10,
    val_main_v21_apply, val_main_v20_apply, val_main_v17_apply, val_main_v19_apply, val_main_v18_apply, eb]
  simp only [el, er, val_main_v4_eq_hid, Ideal.addf_def, Ideal.mulf_def, Ideal.hostUnary_tanh_def,
    Ideal.hostUnary_cos_def, Ideal.ofBits_def]
  rfl

/-! ## The specification's update array by region of positions -/

/-- Below 161700 the specification's update array is head 1 at that triplet. -/
theorem upd_first (x0 : T4x161700x8.Idx → EReal) (x1 : T8x256.Idx → EReal) (x2 : T256.Idx → EReal)
    (x3 : T256x1.Idx → EReal) (x4 : T1.Idx → EReal) (x5 : T256x1.Idx → EReal) (x6 : T1.Idx → EReal)
    (x7 : T256x1.Idx → EReal) (x8 : T1.Idx → EReal)
    (b : Fin 4) (s : Fin 485100) (h1 : s.val < 161700) :
    upd x0 x1 x2 x3 x4 x5 x6 x7 x8 (ix2 b s) = chan x0 x1 x2 x3 x4 b ⟨s.val, h1⟩ := by
  unfold upd
  exact dif_pos (show (ix2 b s 1).val < 161700 from h1)

/-- From 161700 up to 323400 the specification's update array is head 2 at the triplet 161700 less. -/
theorem upd_second (x0 : T4x161700x8.Idx → EReal) (x1 : T8x256.Idx → EReal) (x2 : T256.Idx → EReal)
    (x3 : T256x1.Idx → EReal) (x4 : T1.Idx → EReal) (x5 : T256x1.Idx → EReal) (x6 : T1.Idx → EReal)
    (x7 : T256x1.Idx → EReal) (x8 : T1.Idx → EReal)
    (b : Fin 4) (s : Fin 485100) (h1 : ¬ s.val < 161700) (h2 : s.val < 323400) :
    upd x0 x1 x2 x3 x4 x5 x6 x7 x8 (ix2 b s) = chan x0 x1 x2 x5 x6 b ⟨s.val - 161700, by omega⟩ := by
  unfold upd
  exact (dif_neg (show ¬ (ix2 b s 1).val < 161700 from h1)).trans (dif_pos (show (ix2 b s 1).val < 323400 from h2))

/-- From 323400 on the specification's update array is head 3 at the triplet 323400 less. -/
theorem upd_third (x0 : T4x161700x8.Idx → EReal) (x1 : T8x256.Idx → EReal) (x2 : T256.Idx → EReal)
    (x3 : T256x1.Idx → EReal) (x4 : T1.Idx → EReal) (x5 : T256x1.Idx → EReal) (x6 : T1.Idx → EReal)
    (x7 : T256x1.Idx → EReal) (x8 : T1.Idx → EReal)
    (b : Fin 4) (s : Fin 485100) (h2 : ¬ s.val < 323400) :
    upd x0 x1 x2 x3 x4 x5 x6 x7 x8 (ix2 b s)
      = chan x0 x1 x2 x7 x8 b ⟨s.val - 323400, by have := s.isLt; omega⟩ := by
  unfold upd
  have h1 : ¬ s.val < 161700 := fun h => h2 (by omega)
  exact (dif_neg (show ¬ (ix2 b s 1).val < 161700 from h1)).trans
    (dif_neg (show ¬ (ix2 b s 1).val < 323400 from h2))

/-! ## The update array -/

/-- The reference's update array is the specification's: the three heads laid end to end, read index by index. -/
theorem val_main_v34_eq_upd (x0 : (⟨S4x161700x8, .f32⟩ : BufTy).Contents (Elt Ideal)) (x1 : (⟨S8x256, .f32⟩ : BufTy).Contents (Elt Ideal)) (x2 : (⟨S256, .f32⟩ : BufTy).Contents (Elt Ideal))
    (x3 : (⟨S256x1, .f32⟩ : BufTy).Contents (Elt Ideal)) (x4 : (⟨S1, .f32⟩ : BufTy).Contents (Elt Ideal)) (x5 : (⟨S256x1, .f32⟩ : BufTy).Contents (Elt Ideal)) (x6 : (⟨S1, .f32⟩ : BufTy).Contents (Elt Ideal))
    (x7 : (⟨S256x1, .f32⟩ : BufTy).Contents (Elt Ideal)) (x8 : (⟨S1, .f32⟩ : BufTy).Contents (Elt Ideal)) :
    val_main_v34 (F := Ideal) x0 x1 x2 x3 x4 x5 x6 x7 x8 = upd x0 x1 x2 x3 x4 x5 x6 x7 x8 := by
  funext j
  obtain ⟨b, s, rfl⟩ : ∃ (b : Fin 4) (s : Fin 485100), j = ix2 b s := ⟨j 0, j 1, eq_ix2 j⟩
  unfold val_main_v34
  by_cases h1 : s.val < 161700
  · rw [concat3_first _ _ _ _ b s h1, val_main_v25_eq_chan, upd_first x0 x1 x2 x3 x4 x5 x6 x7 x8 b s h1]
  · by_cases h2 : s.val < 323400
    · rw [concat3_second _ _ _ _ b s h1 h2, val_main_v28_eq_chan, upd_second x0 x1 x2 x3 x4 x5 x6 x7 x8 b s h1 h2]
    · rw [concat3_third _ _ _ _ b s h2, val_main_v31_eq_chan, upd_third x0 x1 x2 x3 x4 x5 x6 x7 x8 b s h2]

end Cert.ReferenceIdeal.RefUpd

end
-- ==== Proof.RefResult.lean ====
/-
  The reference program's result is the symmetrised scatter of the specification's update array.

  After its update array the reference counts a negative row or column index from the end, lays the rows and the columns
  side by side as index pairs, adds the updates into an array of zeros at (row, column), and adds to that sum its own
  transpose over the last two axes.  Its update array is the specification's `upd` of the nine float arguments, so the
  result is that symmetrised sum of `upd`; the rows are the three index arguments laid end to end, and the columns the
  same three one place round.
-/
import proofs.«107014_j70205535421261_2_alg».proof.Proof.Gen.ReferenceIdeal.Read
import proofs.«107014_j70205535421261_2_alg».proof.Proof.RefUpd
import proofs.«107014_j70205535421261_2_alg».proof.Proof.LibSymScatter

noncomputable section

namespace Cert.ReferenceIdeal.RefResult

open Cert.ReferenceIdeal Cert.ReferenceIdeal.Facts₀ Cert.ReferenceIdeal.Read Cert.ReferenceIdeal.RefUpd
  Idealize.ShloMosaic Idealize.ShloMosaic.TcCoe Idealize.SL.Sem Idealize.ShloMosaic.StableHlo

set_option maxRecDepth 8192 in
/-- The reference's result buffer, as a function of the launch contents of its arguments: the updates `upd` of the nine
    float arguments added at (row, column) into zeros, plus the transpose of that sum. -/
theorem res_eq (m : (ℓ : Loc nD τ sig) → Buf (Elt Ideal) ℓ) (c : Dev nD) :
    Cert.ReferenceIdeal.Value.res_out0 (F := Ideal) m c
      = SymScatter.symmetrised (F := Ideal) bcast_S_S485100 bcast_S485100_S485100x1_0
          concatenates_S485100x1_S485100x1_S485100x2_d1 bcast_S_S4x4950x4950
          transposes_S4x4950x4950_S4x4950x4950_0_2_1
          (SymScatter.dims scatter_S4x4950x4950_S485100x2_S4x485100_0_12_12_1_wf)
          (concatenate S485100 0 [⟨S161700, (m ((c.tc : Thread nD τ).loc main_arg9))⟩, ⟨S161700, (m ((c.tc : Thread nD τ).loc main_arg10))⟩, ⟨S161700, (m ((c.tc : Thread nD τ).loc main_arg11))⟩]
            concatenates_S161700_S161700_S161700_S485100_d0)
          (concatenate S485100 0 [⟨S161700, (m ((c.tc : Thread nD τ).loc main_arg10))⟩, ⟨S161700, (m ((c.tc : Thread nD τ).loc main_arg11))⟩, ⟨S161700, (m ((c.tc : Thread nD τ).loc main_arg9))⟩]
            concatenates_S161700_S161700_S161700_S485100_d0)
          (Cert.SigmaSpec.upd (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))) := by
  rw [← val_main_v34_eq_upd]
  show Cert.ReferenceIdeal.Value.res_main_v51 m c = _
  rw [val_main_v51_eq]
  rfl

end Cert.ReferenceIdeal.RefResult

end
-- ==== Proof.Bridge.lean ====
/-
  The two programs end with one result.  The idealized kernel program's final buffer is the twice-scattered update
  array (the reshape of the region's result, which is the specification's heads, hence the specification's update
  array); the idealized reference's is the symmetrised once-scattered update array of the same specification.
  Scattering at (row, column) and again at (column, row) into one zero array is scattering once and adding the
  transpose: both are, entry by entry, the sum of the updates landing on the entry plus the sum of those landing on
  the mirrored entry.
-/
import proofs.«107014_j70205535421261_2_alg».proof.Proof.FinalI
import proofs.«107014_j70205535421261_2_alg».proof.Proof.TailI
import proofs.«107014_j70205535421261_2_alg».proof.Proof.RefResult
import proofs.«107014_j70205535421261_2_alg».proof.Proof.KerUpd
import proofs.«107014_j70205535421261_2_alg».proof.Proof.LibSymScatter

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The row indices of the updates: the three index arguments one after the other. -/
abbrev rowsOf (c : Dev nD) : (⟨S485100, .i32⟩ : BufTy).Contents (Elt Ideal) :=
  concatenate S485100 0 [⟨S161700, m ((c : Thread nD τ).loc main_arg9)⟩, ⟨S161700, m ((c : Thread nD τ).loc main_arg10)⟩, ⟨S161700, m ((c : Thread nD τ).loc main_arg11)⟩] Facts₀.concatenates_S161700_S161700_S161700_S485100_d0
/-- The column indices: the same three, rotated. -/
abbrev colsOf (c : Dev nD) : (⟨S485100, .i32⟩ : BufTy).Contents (Elt Ideal) :=
  concatenate S485100 0 [⟨S161700, m ((c : Thread nD τ).loc main_arg10)⟩, ⟨S161700, m ((c : Thread nD τ).loc main_arg11)⟩, ⟨S161700, m ((c : Thread nD τ).loc main_arg9)⟩] Facts₀.concatenates_S161700_S161700_S161700_S485100_d0

/-- The specification's update array of the launch contents. -/
abbrev updOf (c : Dev nD) : S4x485100.Idx → EReal :=
  Cert.SigmaSpec.upd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The common result: the symmetrised scatter of the specification's update array. -/
def resultOf (c : Dev nD) : S4x4950x4950.Idx → EReal :=
  SymScatter.symmetrised (F := Ideal) Facts₀.bcast_S_S485100 Facts₀.bcast_S485100_S485100x1_0 Facts₀.concatenates_S485100x1_S485100x1_S485100x2_d1
    Facts₀.bcast_S_S4x4950x4950 Cert.ReferenceIdeal.Facts₀.transposes_S4x4950x4950_S4x4950x4950_0_2_1
    (SymScatter.dims Facts₀.scatter_S4x4950x4950_S485100x2_S4x485100_0_12_12_1_wf) (rowsOf m c) (colsOf m c) (updOf m c)

/-- The kernel program's final buffer is the common result. -/
theorem kernel_value (c : Dev nD) :
    Pipeline.afterTail₀ cfgs (vdats m) 0 (V0 m) [hostOps1] c main_v34 = resultOf m c := by
  rw [tail_value m (vdats m) c, final5 m c]
  unfold headsOf
  rw [Cert.SigmaSpec.Ker.reshape_heads]
  exact SymScatter.twiceScattered_eq_symmetrised _ _ _ _ _ _ _ _ _

/-- What the run's post says of the result buffer and the twelve arguments, pointwise. -/
theorem vpost (r : PUnit × MemSt nD τ sig (Elt Ideal))
    (h : Pipeline.FramePost cfgs (vdats m) 0 (Pipeline.afterTail₀ cfgs (vdats m) 0 (V0 m) [hostOps1]) r) (c : Dev nD) :
    r.2.mem ((c.tc : Thread nD τ).loc main_v34) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_v34 (Pipeline.mem_restRefs_of main_v34 (by decide) (by decide))).trans (kernel_value m c),
    (((h c).1 0).trans (((vdats m 0 c).arrAt_in (0 : Fin 6) rfl _).trans ((vA_eq m c 0).trans (V_main_arg0 m c)))),
    (((h c).1 1).trans (((vdats m 0 c).arrAt_in (1 : Fin 6) rfl _).trans ((vA_eq m c 1).trans (V_main_arg1 m c)))),
    (((h c).1 2).trans (((vdats m 0 c).arrAt_in (2 : Fin 6) rfl _).trans ((vA_eq m c 2).trans (V_main_arg2 m c)))),
    (((h c).2 main_arg3 (Pipeline.mem_restRefs_of main_arg3 (by decide) (by decide))).trans (W_main_arg3 m (vdats m) c)),
    (((h c).2 main_arg4 (Pipeline.mem_restRefs_of main_arg4 (by decide) (by decide))).trans (W_main_arg4 m (vdats m) c)),
    (((h c).2 main_arg5 (Pipeline.mem_restRefs_of main_arg5 (by decide) (by decide))).trans (W_main_arg5 m (vdats m) c)),
    (((h c).2 main_arg6 (Pipeline.mem_restRefs_of main_arg6 (by decide) (by decide))).trans (W_main_arg6 m (vdats m) c)),
    (((h c).2 main_arg7 (Pipeline.mem_restRefs_of main_arg7 (by decide) (by decide))).trans (W_main_arg7 m (vdats m) c)),
    (((h c).2 main_arg8 (Pipeline.mem_restRefs_of main_arg8 (by decide) (by decide))).trans (W_main_arg8 m (vdats m) c)),
    (((h c).2 main_arg9 (Pipeline.mem_restRefs_of main_arg9 (by decide) (by decide))).trans (W_main_arg9 m (vdats m) c)),
    (((h c).2 main_arg10 (Pipeline.mem_restRefs_of main_arg10 (by decide) (by decide))).trans (W_main_arg10 m (vdats m) c)),
    (((h c).2 main_arg11 (Pipeline.mem_restRefs_of main_arg11 (by decide) (by decide))).trans (W_main_arg11 m (vdats m) c))⟩

/-- The idealized kernel program runs to the common result with its arguments unchanged. -/
theorem value_run : θ_run defs (onTc (τ := τ) (main (F := Ideal))) ⟨m, fun _ => 0, ρ⟩ (fun r => ∀ c : Dev nD,
    r.2.mem ((c.tc : Thread nD τ).loc main_v34) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => vpost m r h c) (vrun_main m ρ)

end Cert.KernelIdeal.Hand

end
-- ==== Proof.lean ====
/-
  The five claims about the triplet-sign scatter kernel and its reference.

  Both programs map, for each of four batches, the 161700 triplets' eight error features through a shared rectified
  hidden layer of 256 units and three one-output heads, take cos(π̃·tanh(·)) of each head, and scatter-add the
  resulting 3·161700 values of a batch into a 4950×4950 matrix at (row, column) positions read from three integer
  index arguments, symmetrically.  The kernel program computes the heads in one gridded region (eighty blocks of
  8192 triplets, the last block of a batch overhanging the array) and scatters twice, at (row, column) and at
  (column, row); the reference scatters once and adds the transpose.  On the extended reals the two results are
  equal for all index arguments and all (even non-finite) float arguments: sums of extended reals may be reordered,
  an entry of the heads depends only on its own triplet's features, and the mirrored scatter is the transpose.

  The frames: the word-level kernel program's with the region's result forgotten; the idealized kernel program's from
  its value run; the reference's from its generated run.  The ideal pass rewrote nothing, so `preserves` is trivial.
-/
import proofs.«107014_j70205535421261_2_alg».proof.Defs
import proofs.«107014_j70205535421261_2_alg».proof.Proof.Gen.Kernel
import proofs.«107014_j70205535421261_2_alg».proof.Proof.Gen.Kernel.Skeleton
import proofs.«107014_j70205535421261_2_alg».proof.Proof.Gen.Kernel.Launch
import proofs.«107014_j70205535421261_2_alg».proof.Proof.Gen.Kernel.Points
import proofs.«107014_j70205535421261_2_alg».proof.Proof.Gen.KernelIdeal
import proofs.«107014_j70205535421261_2_alg».proof.Proof.Gen.KernelIdeal.Skeleton
import proofs.«107014_j70205535421261_2_alg».proof.Proof.Gen.KernelIdeal.Launch
import proofs.«107014_j70205535421261_2_alg».proof.Proof.Gen.KernelIdeal.Points
import proofs.«107014_j70205535421261_2_alg».proof.Proof.Gen.ReferenceIdeal
import proofs.«107014_j70205535421261_2_alg».proof.Proof.Gen.Pre_finite_inputs
import proofs.«107014_j70205535421261_2_alg».proof.Proof.Gen.ReferenceIdeal.Run
import proofs.«107014_j70205535421261_2_alg».proof.Proof.Gen.ReferenceIdeal.Read
import proofs.«107014_j70205535421261_2_alg».proof.Proof.ForgetK
import proofs.«107014_j70205535421261_2_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments unchanged. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.vframe m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the twelve arguments both idealized programs end at the symmetrised scatter of the
    specification's update array. -/
theorem algebraic : Cert.algebraic_KernelIdeal_ReferenceIdeal := by
  intro m ρ m' ρ' _ hagree
  refine ⟨fun c => Cert.KernelIdeal.Hand.resultOf m c, Cert.KernelIdeal.Hand.value_run m ρ, ?_⟩
  refine (θ_run Cert.ReferenceIdeal.defs _ _).mono (fun r h c => ⟨(h c).1.trans ?_, (h c).2⟩)
    (Cert.ReferenceIdeal.Value.run (F := Ideal) m' ρ')
  show Cert.ReferenceIdeal.Value.res_out0 (F := Ideal) m' c = Cert.KernelIdeal.Hand.resultOf m c
  unfold Cert.KernelIdeal.Hand.resultOf
  rw [Cert.ReferenceIdeal.RefResult.res_eq m' c, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2] <;> rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
